-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x32 : Shape := ⟨3, ![128, 256, 32]⟩
abbrev S128x256x512 : Shape := ⟨3, ![128, 256, 512]⟩
abbrev S256x512 : Shape := ⟨2, ![256, 512]⟩
abbrev S256 : Shape := ⟨1, ![256]⟩
abbrev S2048x256 : Shape := ⟨2, ![2048, 256]⟩
abbrev S2048 : Shape := ⟨1, ![2048]⟩
abbrev S64x256 : Shape := ⟨2, ![64, 256]⟩
abbrev S64 : Shape := ⟨1, ![64]⟩
abbrev S64x512 : Shape := ⟨2, ![64, 512]⟩
abbrev S1x64 : Shape := ⟨2, ![1, 64]⟩
abbrev S1 : Shape := ⟨1, ![1]⟩
abbrev S_ : Shape := ⟨0, ![]⟩

class Facts : Prop where
  bcast_S_S128x256x32 : S_.BroadcastsInDim S128x256x32 (![] : Fin 0 → Fin S128x256x32.rank)
  reducesTo_S128x256x32_S_d0_1_2 : S128x256x32.ReducesTo [0, 1, 2] S_
  h_S_ : 0 < S_.numel
  bcast_S_S128x256x512 : S_.BroadcastsInDim S128x256x512 (![] : Fin 0 → Fin S128x256x512.rank)
  reducesTo_S128x256x512_S_d0_1_2 : S128x256x512.ReducesTo [0, 1, 2] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S2048x256 : S_.BroadcastsInDim S2048x256 (![] : Fin 0 → Fin S2048x256.rank)
  reducesTo_S2048x256_S_d0_1 : S2048x256.ReducesTo [0, 1] S_
  bcast_S_S2048 : S_.BroadcastsInDim S2048 (![] : Fin 0 → Fin S2048.rank)
  reducesTo_S2048_S_d0 : S2048.ReducesTo [0] S_
  bcast_S_S64x256 : S_.BroadcastsInDim S64x256 (![] : Fin 0 → Fin S64x256.rank)
  reducesTo_S64x256_S_d0_1 : S64x256.ReducesTo [0, 1] S_
  bcast_S_S64 : S_.BroadcastsInDim S64 (![] : Fin 0 → Fin S64.rank)
  reducesTo_S64_S_d0 : S64.ReducesTo [0] S_
  bcast_S_S64x512 : S_.BroadcastsInDim S64x512 (![] : Fin 0 → Fin S64x512.rank)
  reducesTo_S64x512_S_d0_1 : S64x512.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1x64 .f32) (main_arg15 : FVec F S1 .f32) (main_v63 : IVec S_ 1) (main_v67 : IVec S_ 1) : IVec S_ 1 :=
  let main_v68 : IVec S_ 1 := andi main_v63 main_v67
  let main_v69 : FVec F S1x64 .f32 := Host.absf main_arg14
  let main_cst_26 : FVec F S_ .f32 := constant S_ .f32 0x7F800000#32
  let main_v70 : FVec F S1x64 .f32 := broadcastInDim S1x64 ![] bcast_S_S1x64 main_cst_26
  let main_v71 : IVec S1x64 1 := cmpf .olt main_v69 main_v70
  let main_c_27 : IVec S_ 1 := constantI S_ 1 1#1
  let main_v72 : IVec S_ 1 := (fun x v => Host.reduce IntOp.andi x v reducesTo_S1x64_S_d0_1 h_S_) main_v71 main_c_27
  let main_v73 : IVec S_ 1 := andi main_v68 main_v72
  let main_v74 : FVec F S1 .f32 := Host.absf main_arg15
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg11 : FVec F S64 .f32) (main_arg12 : FVec F S64x512 .f32) (main_arg13 : FVec F S64 .f32) (main_arg14 : FVec F S1x64 .f32) (main_arg15 : FVec F S1 .f32) (main_v48 : IVec S_ 1) (main_v49 : FVec F S64x512 .f32) (main_v50 : FVec F S64x512 .f32) : IVec S_ 1 :=
  let main_v51 : IVec S64x512 1 := cmpf .olt main_v49 main_v50
  let main_c_19 : IVec S_ 1 := constantI S_ 1 1#1
  let main_v52 : IVec S_ 1 := (fun x v => Host.reduce IntOp.andi x v reducesTo_S64x512_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x512 .f32 := Host.absf main_arg12
  let main_cst_22 : FVec F S_ .f32 := constant S_ .f32 0x7F800000#32
  let main_v60 : FVec F S64x512 .f32 := broadcastInDim S64x512 ![] bcast_S_S64x512 main_cst_22
  let main_v61 : IVec S64x512 1 := cmpf .olt main_v59 main_v60
  let main_c_23 : IVec S_ 1 := constantI S_ 1 1#1
  let main_v62 : IVec S_ 1 := (fun x v => Host.reduce IntOp.andi x v reducesTo_S64x512_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_v63 main_v67

def fn_part2 {F : FTy → Type} [FloatOps F] (main_arg7 : FVec F S256 .f32) (main_arg8 : FVec F S64x256 .f32) (main_arg9 : FVec F S64 .f32) (main_arg10 : FVec F S64x512 .f32) (main_arg11 : FVec F S64 .f32) (main_arg12 : FVec F S64x512 .f32) (main_arg13 : FVec F S64 .f32) (main_arg14 : FVec F S1x64 .f32) (main_arg15 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S64x256 .f32 := Host.absf main_arg8
  let main_cst_14 : FVec F S_ .f32 := constant S_ .f32 0x7F800000#32
  let main_v40 : FVec F S64x256 .f32 := broadcastInDim S64x256 ![] bcast_S_S64x256 main_cst_14
  let main_v41 : IVec S64x256 1 := cmpf .olt main_v39 main_v40
  let main_c_15 : IVec S_ 1 := constantI S_ 1 1#1
  let main_v42 : IVec S_ 1 := (fun x v => Host.reduce IntOp.andi x v reducesTo_S64x256_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x512 .f32 := Host.absf main_arg10
  let main_cst_18 : FVec F S_ .f32 := constant S_ .f32 0x7F800000#32
  let main_v50 : FVec F S64x512 .f32 := broadcastInDim S64x512 ![] bcast_S_S64x512 main_cst_18
  fn_part3 (F := F) main_arg11 main_arg12 main_arg13 main_arg14 main_arg15 main_v48 main_v49 main_v50

def fn_part1 {F : FTy → Type} [FloatOps F] (main_arg4 : FVec F S2048x256 .f32) (main_arg5 : FVec F S2048 .f32) (main_arg6 : FVec F S256x512 .f32) (main_arg7 : FVec F S256 .f32) (main_arg8 : FVec F S64x256 .f32) (main_arg9 : FVec F S64 .f32) (main_arg10 : FVec F S64x512 .f32) (main_arg11 : FVec F S64 .f32) (main_arg12 : FVec F S64x512 .f32) (main_arg13 : FVec F S64 .f32) (main_arg14 : FVec F S1x64 .f32) (main_arg15 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S2048x256 .f32 := Host.absf main_arg4
  let main_cst_6 : FVec F S_ .f32 := constant S_ .f32 0x7F800000#32
  let main_v20 : FVec F S2048x256 .f32 := broadcastInDim S2048x256 ![] bcast_S_S2048x256 main_cst_6
  let main_v21 : IVec S2048x256 1 := cmpf .olt main_v19 main_v20
  let main_c_7 : IVec S_ 1 := constantI S_ 1 1#1
  let main_v22 : IVec S_ 1 := (fun x v => Host.reduce IntOp.andi x v reducesTo_S2048x256_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S256x512 .f32 := Host.absf main_arg6
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S128x256x32 .f32) (main_arg1 : FVec F S128x256x512 .f32) (main_arg2 : FVec F S256x512 .f32) (main_arg3 : FVec F S256 .f32) (main_arg4 : FVec F S2048x256 .f32) (main_arg5 : FVec F S2048 .f32) (main_arg6 : FVec F S256x512 .f32) (main_arg7 : FVec F S256 .f32) (main_arg8 : FVec F S64x256 .f32) (main_arg9 : FVec F S64 .f32) (main_arg10 : FVec F S64x512 .f32) (main_arg11 : FVec F S64 .f32) (main_arg12 : FVec F S64x512 .f32) (main_arg13 : FVec F S64 .f32) (main_arg14 : FVec F S1x64 .f32) (main_arg15 : FVec F S1 .f32) : IVec S_ 1 :=
  let main_v0 : FVec F S128x256x32 .f32 := Host.absf main_arg0
  let main_cst : FVec F S_ .f32 := constant S_ .f32 0x7F800000#32
  let main_v1 : FVec F S128x256x32 .f32 := broadcastInDim S128x256x32 ![] bcast_S_S128x256x32 main_cst
  let main_v2 : IVec S128x256x32 1 := cmpf .olt main_v0 main_v1
  let main_c : IVec S_ 1 := constantI S_ 1 1#1
  let main_v3 : IVec S_ 1 := (fun x v => Host.reduce IntOp.andi x v reducesTo_S128x256x32_S_d0_1_2 h_S_) main_v2 main_c
  let main_v4 : FVec F S128x256x512 .f32 := Host.absf main_arg1
  let main_cst_0 : FVec F S_ .f32 := constant S_ .f32 0x7F800000#32
  let main_v5 : FVec F S128x256x512 .f32 := broadcastInDim S128x256x512 ![] bcast_S_S128x256x512 main_cst_0
  let main_v6 : IVec S128x256x512 1 := cmpf .olt main_v4 main_v5
  let main_c_1 : IVec S_ 1 := constantI S_ 1 1#1
  let main_v7 : IVec S_ 1 := (fun x v => Host.reduce IntOp.andi x v reducesTo_S128x256x512_S_d0_1_2 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S128x256x32 : Shape := ⟨3, ![128, 256, 32]⟩
abbrev S128x256x512 : Shape := ⟨3, ![128, 256, 512]⟩
abbrev S256x512 : Shape := ⟨2, ![256, 512]⟩
abbrev S256 : Shape := ⟨1, ![256]⟩
abbrev S2048x256 : Shape := ⟨2, ![2048, 256]⟩
abbrev S2048 : Shape := ⟨1, ![2048]⟩
abbrev S64x256 : Shape := ⟨2, ![64, 256]⟩
abbrev S64 : Shape := ⟨1, ![64]⟩
abbrev S64x512 : Shape := ⟨2, ![64, 512]⟩
abbrev S1x64 : Shape := ⟨2, ![1, 64]⟩
abbrev S1 : Shape := ⟨1, ![1]⟩
abbrev S32768x512 : Shape := ⟨2, ![32768, 512]⟩
abbrev S32768x32 : Shape := ⟨2, ![32768, 32]⟩
abbrev S1x256 : Shape := ⟨2, ![1, 256]⟩
abbrev S1x2048 : Shape := ⟨2, ![1, 2048]⟩
abbrev S1x1 : Shape := ⟨2, ![1, 1]⟩
abbrev S32768 : Shape := ⟨1, ![32768]⟩
abbrev S1024x512 : Shape := ⟨2, ![1024, 512]⟩
abbrev S1024x32 : Shape := ⟨2, ![1024, 32]⟩
abbrev S1024 : Shape := ⟨1, ![1024]⟩
abbrev S512x256 : Shape := ⟨2, ![512, 256]⟩
abbrev S1024x256 : Shape := ⟨2, ![1024, 256]⟩
abbrev S256x2048 : Shape := ⟨2, ![256, 2048]⟩
abbrev S1024x2048 : Shape := ⟨2, ![1024, 2048]⟩
abbrev S512x64 : Shape := ⟨2, ![512, 64]⟩
abbrev S1024x64 : Shape := ⟨2, ![1024, 64]⟩
abbrev S1024x32x1 : Shape := ⟨3, ![1024, 32, 1]⟩
abbrev S1024x32x64 : Shape := ⟨3, ![1024, 32, 64]⟩
abbrev S256x64 : Shape := ⟨2, ![256, 64]⟩
abbrev S1024x1 : Shape := ⟨2, ![1024, 1]⟩
abbrev S128x256x1 : Shape := ⟨3, ![128, 256, 1]⟩

abbrev nBuf : Space → Nat
  | .hbm => 33
  | .vmem => 20
  | .smem => 0
  | _ => 0

abbrev bufTy : (tb : Table) → Fin (tcTables nBuf tb) → BufTy
  | .hbm, ⟨0, _⟩ => ⟨S128x256x32, .f32⟩
  | .hbm, ⟨1, _⟩ => ⟨S128x256x512, .f32⟩
  | .hbm, ⟨2, _⟩ => ⟨S256x512, .f32⟩
  | .hbm, ⟨3, _⟩ => ⟨S256, .f32⟩
  | .hbm, ⟨4, _⟩ => ⟨S2048x256, .f32⟩
  | .hbm, ⟨5, _⟩ => ⟨S2048, .f32⟩
  | .hbm, ⟨6, _⟩ => ⟨S256x512, .f32⟩
  | .hbm, ⟨7, _⟩ => ⟨S256, .f32⟩
  | .hbm, ⟨8, _⟩ => ⟨S64x256, .f32⟩
  | .hbm, ⟨9, _⟩ => ⟨S64, .f32⟩
  | .hbm, ⟨10, _⟩ => ⟨S64x512, .f32⟩
  | .hbm, ⟨11, _⟩ => ⟨S64, .f32⟩
  | .hbm, ⟨12, _⟩ => ⟨S64x512, .f32⟩
  | .hbm, ⟨13, _⟩ => ⟨S64, .f32⟩
  | .hbm, ⟨14, _⟩ => ⟨S1x64, .f32⟩
  | .hbm, ⟨15, _⟩ => ⟨S1, .f32⟩
  | .hbm, ⟨16, _⟩ => ⟨S32768x512, .f32⟩
  | .hbm, ⟨17, _⟩ => ⟨S32768x32, .f32⟩
  | .hbm, ⟨18, _⟩ => ⟨S256x512, .bf16⟩
  | .hbm, ⟨19, _⟩ => ⟨S2048x256, .bf16⟩
  | .hbm, ⟨20, _⟩ => ⟨S256x512, .bf16⟩
  | .hbm, ⟨21, _⟩ => ⟨S64x256, .bf16⟩
  | .hbm, ⟨22, _⟩ => ⟨S64x512, .bf16⟩
  | .hbm, ⟨23, _⟩ => ⟨S64x512, .bf16⟩
  | .hbm, ⟨24, _⟩ => ⟨S1x256, .f32⟩
  | .hbm, ⟨25, _⟩ => ⟨S1x2048, .f32⟩
  | .hbm, ⟨26, _⟩ => ⟨S1x256, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x1, .f32⟩
  | .hbm, ⟨31, _⟩ => ⟨S32768, .f32⟩
  | .hbm, ⟨32, _⟩ => ⟨S128x256x1, .f32⟩
  | .local _ .vmem, ⟨0, _⟩ => ⟨S1024x512, .f32⟩
  | .local _ .vmem, ⟨1, _⟩ => ⟨S1024x512, .f32⟩
  | .local _ .vmem, ⟨2, _⟩ => ⟨S1024x32, .f32⟩
  | .local _ .vmem, ⟨3, _⟩ => ⟨S1024x32, .f32⟩
  | .local _ .vmem, ⟨4, _⟩ => ⟨S256x512, .bf16⟩
  | .local _ .vmem, ⟨5, _⟩ => ⟨S1x256, .f32⟩
  | .local _ .vmem, ⟨6, _⟩ => ⟨S2048x256, .bf16⟩
  | .local _ .vmem, ⟨7, _⟩ => ⟨S1x2048, .f32⟩
  | .local _ .vmem, ⟨8, _⟩ => ⟨S256x512, .bf16⟩
  | .local _ .vmem, ⟨9, _⟩ => ⟨S1x256, .f32⟩
  | .local _ .vmem, ⟨10, _⟩ => ⟨S64x256, .bf16⟩
  | .local _ .vmem, ⟨11, _⟩ => ⟨S1x64, .f32⟩
  | .local _ .vmem, ⟨12, _⟩ => ⟨S64x512, .bf16⟩
  | .local _ .vmem, ⟨13, _⟩ => ⟨S1x64, .f32⟩
  | .local _ .vmem, ⟨14, _⟩ => ⟨S64x512, .bf16⟩
  | .local _ .vmem, ⟨15, _⟩ => ⟨S1x64, .f32⟩
  | .local _ .vmem, ⟨16, _⟩ => ⟨S1x64, .f32⟩
  | .local _ .vmem, ⟨17, _⟩ => ⟨S1x1, .f32⟩
  | .local _ .vmem, ⟨18, _⟩ => ⟨S1024, .f32⟩
  | .local _ .vmem, ⟨19, _⟩ => ⟨S1024, .f32⟩
  | _, _ => ⟨S128x256x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S128x256x512_S32768x512 : S128x256x512.ShapeCasts S32768x512
  shapeCasts_S128x256x32_S32768x32 : S128x256x32.ShapeCasts S32768x32
  bitsLt_bf16_f32 : FTy.bits .bf16 < FTy.bits .f32
  shapeCasts_S256_S1x256 : S256.ShapeCasts S1x256
  shapeCasts_S2048_S1x2048 : S2048.ShapeCasts S1x2048
  shapeCasts_S64_S1x64 : S64.ShapeCasts S1x64
  shapeCasts_S1_S1x1 : S1.ShapeCasts S1x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  transposes_S256x512_p1_0_S512x256 : S256x512.Transposes [1, 0] S512x256
  broadcasts_S1x256_S1024x256 : S1x256.Broadcasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  transposes_S2048x256_p1_0_S256x2048 : S2048x256.Transposes [1, 0] S256x2048
  broadcasts_S1x2048_S1024x2048 : S1x2048.Broadcasts S1024x2048
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x512_p1_0_S512x64 : S64x512.Transposes [1, 0] S512x64
  broadcasts_S1x64_S1024x64 : S1x64.Broadcasts S1024x64
  shapeCasts_S1024x32_S1024x32x1 : S1024x32.ShapeCasts S1024x32x1
  shapeCasts_S1024x32x1_S1024x32x1 : S1024x32x1.ShapeCasts S1024x32x1
  broadcasts_S1024x32x1_S1024x32x64 : S1024x32x1.Broadcasts S1024x32x64
  shapeCasts_S1024x32x64_S1024x2048 : S1024x32x64.ShapeCasts S1024x2048
  shapeCasts_S1024x2048_S1024x32x64 : S1024x2048.ShapeCasts S1024x32x64
  reduces_S1024x32x64_S1024x64 : S1024x32x64.Reduces [1] S1024x64
  inb_S64x256_S64x256_0_0 : ∀ a, (![0, 0] : Fin 2 → Nat) a + S64x256.size a ≤ S64x256.size a
  h_S64x256 : 0 < S64x256.numel
  shapeCasts_S64x256_S64x256 : S64x256.ShapeCasts S64x256
  transposes_S64x256_p1_0_S256x64 : S64x256.Transposes [1, 0] S256x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S1024x64_S1024 : S1024x64.Reduces [1] S1024
  shapeCasts_S1024_S1024x1 : S1024.ShapeCasts S1024x1
  broadcasts_S1x1_S1024x1 : S1x1.Broadcasts S1024x1
  shapeCasts_S1024x1_S1024 : S1024x1.ShapeCasts S1024
  inb_S1024_S1024_0 : ∀ a, (![0] : Fin 1 → Nat) a + S1024.size a ≤ S1024.size a
  h_S1024 : 0 < S1024.numel
  shapeCasts_S32768_S128x256x1 : S32768.ShapeCasts S128x256x1
  dot_S1024x512_S512x256_S1024x256_1_0_0_1_n_n_wf : DotDims.WF S1024x512 S512x256 S1024x256 [1] [0] [0] [1] [] []
  dot_S1024x256_S256x2048_S1024x2048_1_0_0_1_n_n_wf : DotDims.WF S1024x256 S256x2048 S1024x2048 [1] [0] [0] [1] [] []
  dot_S1024x512_S512x64_S1024x64_1_0_0_1_n_n_wf : DotDims.WF S1024x512 S512x64 S1024x64 [1] [0] [0] [1] [] []
  dot_S1024x256_S256x64_S1024x64_1_0_0_1_n_n_wf : DotDims.WF S1024x256 S256x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x32.size a ≤ S32768x32.size a
  hwx0_1 : ∀ i : grid0.Coords, EltTy.bits .f32 = 32 ∨ (Rect.block (s := S32768x32) S1024x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x256.size a
  hwx0_4 : ∀ i : grid0.Coords, EltTy.bits .bf16 = 32 ∨ (Rect.block (s := S2048x256) S2048x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .bf16 = 32 ∨ (Rect.block (s := S256x512) S256x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x256.size a ≤ S64x256.size a
  hwx0_8 : ∀ i : grid0.Coords, EltTy.bits .bf16 = 32 ∨ (Rect.block (s := S64x256) S64x256.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x512.size a ≤ S64x512.size a
  hwx0_10 : ∀ i : grid0.Coords, EltTy.bits .bf16 = 32 ∨ (Rect.block (s := S64x512) S64x512.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x512.size a ≤ S64x512.size a
  hwx0_12 : ∀ i : grid0.Coords, EltTy.bits .bf16 = 32 ∨ (Rect.block (s := S64x512) S64x512.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024.size a ≤ S32768.size a
  hwx0_16 : ∀ i : grid0.Coords, EltTy.bits .f32 = 32 ∨ (Rect.block (s := S32768) S1024.size (cc0_transform_16 i) (hinb0_16 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf
def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S256x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S64x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6) S64x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S64x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v13) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v14) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v15) S1024.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S128x256x32 : Shape := ⟨3, ![128, 256, 32]⟩
abbrev S128x256x512 : Shape := ⟨3, ![128, 256, 512]⟩
abbrev S256x512 : Shape := ⟨2, ![256, 512]⟩
abbrev S256 : Shape := ⟨1, ![256]⟩
abbrev S2048x256 : Shape := ⟨2, ![2048, 256]⟩
abbrev S2048 : Shape := ⟨1, ![2048]⟩
abbrev S64x256 : Shape := ⟨2, ![64, 256]⟩
abbrev S64 : Shape := ⟨1, ![64]⟩
abbrev S64x512 : Shape := ⟨2, ![64, 512]⟩
abbrev S1x64 : Shape := ⟨2, ![1, 64]⟩
abbrev S1 : Shape := ⟨1, ![1]⟩
abbrev S32768x512 : Shape := ⟨2, ![32768, 512]⟩
abbrev S32768x1x32 : Shape := ⟨3, ![32768, 1, 32]⟩
abbrev S512x256 : Shape := ⟨2, ![512, 256]⟩
abbrev S32768x256 : Shape := ⟨2, ![32768, 256]⟩
abbrev S1x256 : Shape := ⟨2, ![1, 256]⟩
abbrev S_ : Shape := ⟨0, ![]⟩
abbrev S256x2048 : Shape := ⟨2, ![256, 2048]⟩
abbrev S32768x2048 : Shape := ⟨2, ![32768, 2048]⟩
abbrev S1x2048 : Shape := ⟨2, ![1, 2048]⟩
abbrev S32768x32x64 : Shape := ⟨3, ![32768, 32, 64]⟩
abbrev S512x64 : Shape := ⟨2, ![512, 64]⟩
abbrev S32768x64 : Shape := ⟨2, ![32768, 64]⟩
abbrev S32768x1x64 : Shape := ⟨3, ![32768, 1, 64]⟩
abbrev S256x64 : Shape := ⟨2, ![256, 64]⟩
abbrev S32768x64x1 : Shape := ⟨3, ![32768, 64, 1]⟩
abbrev S64x1 : Shape := ⟨2, ![64, 1]⟩
abbrev S32768x1 : Shape := ⟨2, ![32768, 1]⟩
abbrev S1x1 : Shape := ⟨2, ![1, 1]⟩
abbrev S32768x1x1 : Shape := ⟨3, ![32768, 1, 1]⟩
abbrev S128x256x1 : Shape := ⟨3, ![128, 256, 1]⟩

abbrev nBuf : Space → Nat
  | .hbm => 88
  | .vmem => 0
  | .smem => 0
  | _ => 0

abbrev bufTy : (tb : Table) → Fin (tcTables nBuf tb) → BufTy
  | .hbm, ⟨0, _⟩ => ⟨S128x256x32, .f32⟩
  | .hbm, ⟨1, _⟩ => ⟨S128x256x512, .f32⟩
  | .hbm, ⟨2, _⟩ => ⟨S256x512, .f32⟩
  | .hbm, ⟨3, _⟩ => ⟨S256, .f32⟩
  | .hbm, ⟨4, _⟩ => ⟨S2048x256, .f32⟩
  | .hbm, ⟨5, _⟩ => ⟨S2048, .f32⟩
  | .hbm, ⟨6, _⟩ => ⟨S256x512, .f32⟩
  | .hbm, ⟨7, _⟩ => ⟨S256, .f32⟩
  | .hbm, ⟨8, _⟩ => ⟨S64x256, .f32⟩
  | .hbm, ⟨9, _⟩ => ⟨S64, .f32⟩
  | .hbm, ⟨10, _⟩ => ⟨S64x512, .f32⟩
  | .hbm, ⟨11, _⟩ => ⟨S64, .f32⟩
  | .hbm, ⟨12, _⟩ => ⟨S64x512, .f32⟩
  | .hbm, ⟨13, _⟩ => ⟨S64, .f32⟩
  | .hbm, ⟨14, _⟩ => ⟨S1x64, .f32⟩
  | .hbm, ⟨15, _⟩ => ⟨S1, .f32⟩
  | .hbm, ⟨16, _⟩ => ⟨S32768x512, .f32⟩
  | .hbm, ⟨17, _⟩ => ⟨S32768x1x32, .f32⟩
  | .hbm, ⟨18, _⟩ => ⟨S512x256, .f32⟩
  | .hbm, ⟨19, _⟩ => ⟨S32768x256, .f32⟩
  | .hbm, ⟨20, _⟩ => ⟨S1x256, .f32⟩
  | .hbm, ⟨21, _⟩ => ⟨S32768x256, .f32⟩
  | .hbm, ⟨22, _⟩ => ⟨S32768x256, .f32⟩
  | .hbm, ⟨23, _⟩ => ⟨S_, .f32⟩
  | .hbm, ⟨24, _⟩ => ⟨S32768x256, .f32⟩
  | .hbm, ⟨25, _⟩ => ⟨S32768x256, .f32⟩
  | .hbm, ⟨26, _⟩ => ⟨S256x2048, .f32⟩
  | .hbm, ⟨27, _⟩ => ⟨S32768x2048, .f32⟩
  | .hbm, ⟨28, _⟩ => ⟨S1x2048, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S32768x32x64, .f32⟩
  | .hbm, ⟨33, _⟩ => ⟨S512x64, .f32⟩
  | .hbm, ⟨34, _⟩ => ⟨S32768x64, .f32⟩
  | .hbm, ⟨35, _⟩ => ⟨S1x64, .f32⟩
  | .hbm, ⟨36, _⟩ => ⟨S32768x64, .f32⟩
  | .hbm, ⟨37, _⟩ => ⟨S32768x64, .f32⟩
  | .hbm, ⟨38, _⟩ => ⟨S32768x1x64, .f32⟩
  | .hbm, ⟨39, _⟩ => ⟨S32768x1x64, .f32⟩
  | .hbm, ⟨40, _⟩ => ⟨S32768x1x64, .f32⟩
  | .hbm, ⟨41, _⟩ => ⟨S_, .f32⟩
  | .hbm, ⟨42, _⟩ => ⟨S32768x1x64, .f32⟩
  | .hbm, ⟨43, _⟩ => ⟨S32768x1x64, .i1⟩
  | .hbm, ⟨44, _⟩ => ⟨S_, .f32⟩
  | .hbm, ⟨45, _⟩ => ⟨S32768x1x64, .f32⟩
  | .hbm, ⟨46, _⟩ => ⟨S32768x1x64, .i1⟩
  | .hbm, ⟨47, _⟩ => ⟨S_, .f32⟩
  | .hbm, ⟨48, _⟩ => ⟨S_, .f32⟩
  | .hbm, ⟨49, _⟩ => ⟨S32768x1x64, .f32⟩
  | .hbm, ⟨50, _⟩ => ⟨S32768x1x64, .f32⟩
  | .hbm, ⟨51, _⟩ => ⟨S32768x1x64, .f32⟩
  | .hbm, ⟨52, _⟩ => ⟨S_, .f32⟩
  | .hbm, ⟨53, _⟩ => ⟨S32768x1x64, .f32⟩
  | .hbm, ⟨54, _⟩ => ⟨S32768x1x64, .f32⟩
  | .hbm, ⟨55, _⟩ => ⟨S32768x1x64, .f32⟩
  | .hbm, ⟨56, _⟩ => ⟨S512x256, .f32⟩
  | .hbm, ⟨57, _⟩ => ⟨S32768x256, .f32⟩
  | .hbm, ⟨58, _⟩ => ⟨S1x256, .f32⟩
  | .hbm, ⟨59, _⟩ => ⟨S32768x256, .f32⟩
  | .hbm, ⟨60, _⟩ => ⟨S32768x256, .f32⟩
  | .hbm, ⟨61, _⟩ => ⟨S_, .f32⟩
  | .hbm, ⟨62, _⟩ => ⟨S32768x256, .f32⟩
  | .hbm, ⟨63, _⟩ => ⟨S32768x256, .f32⟩
  | .hbm, ⟨64, _⟩ => ⟨S256x64, .f32⟩
  | .hbm, ⟨65, _⟩ => ⟨S32768x64, .f32⟩
  | .hbm, ⟨66, _⟩ => ⟨S1x64, .f32⟩
  | .hbm, ⟨67, _⟩ => ⟨S32768x64, .f32⟩
  | .hbm, ⟨68, _⟩ => ⟨S32768x64, .f32⟩
  | .hbm, ⟨69, _⟩ => ⟨S32768x64, .f32⟩
  | .hbm, ⟨70, _⟩ => ⟨S32768x64x1, .f32⟩
  | .hbm, ⟨71, _⟩ => ⟨S512x64, .f32⟩
  | .hbm, ⟨72, _⟩ => ⟨S32768x64, .f32⟩
  | .hbm, ⟨73, _⟩ => ⟨S1x64, .f32⟩
  | .hbm, ⟨74, _⟩ => ⟨S32768x64, .f32⟩
  | .hbm, ⟨75, _⟩ => ⟨S32768x64, .f32⟩
  | .hbm, ⟨76, _⟩ => ⟨S_, .f32⟩
  | .hbm, ⟨77, _⟩ => ⟨S32768x64, .f32⟩
  | .hbm, ⟨78, _⟩ => ⟨S32768x64, .f32⟩
  | .hbm, ⟨79, _⟩ => ⟨S64x1, .f32⟩
  | .hbm, ⟨80, _⟩ => ⟨S32768x1, .f32⟩
  | .hbm, ⟨81, _⟩ => ⟨S1x1, .f32⟩
  | .hbm, ⟨82, _⟩ => ⟨S32768x1, .f32⟩
  | .hbm, ⟨83, _⟩ => ⟨S32768x1, .f32⟩
  | .hbm, ⟨84, _⟩ => ⟨S32768x1x1, .f32⟩
  | .hbm, ⟨85, _⟩ => ⟨S32768x1x1, .f32⟩
  | .hbm, ⟨86, _⟩ => ⟨S32768x1x1, .f32⟩
  | .hbm, ⟨87, _⟩ => ⟨S128x256x1, .f32⟩
  | _, _ => ⟨S128x256x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call0_cst : Ref sig .tc := ⟨.hbm, 23, rfl⟩
abbrev main_call0_v0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call1_cst : Ref sig .tc := ⟨.hbm, 41, rfl⟩
abbrev main_call1_v0 : Ref sig .tc := ⟨.hbm, 42, rfl⟩
abbrev main_call1_v1 : Ref sig .tc := ⟨.hbm, 43, rfl⟩
abbrev main_call1_cst_0 : Ref sig .tc := ⟨.hbm, 44, rfl⟩
abbrev main_call1_v2 : Ref sig .tc := ⟨.hbm, 45, rfl⟩
abbrev main_call1_v3 : Ref sig .tc := ⟨.hbm, 46, rfl⟩
abbrev main_call1_cst_1 : Ref sig .tc := ⟨.hbm, 47, rfl⟩
abbrev main_call1_call0_v0 : Ref sig .tc := ⟨.hbm, 48, rfl⟩
abbrev main_call1_call0_v1 : Ref sig .tc := ⟨.hbm, 49, rfl⟩
abbrev main_call1_v4 : Ref sig .tc := ⟨.hbm, 50, rfl⟩
abbrev main_call1_v5 : Ref sig .tc := ⟨.hbm, 51, rfl⟩
abbrev main_call1_cst_2 : Ref sig .tc := ⟨.hbm, 52, rfl⟩
abbrev main_call1_v6 : Ref sig .tc := ⟨.hbm, 53, rfl⟩
abbrev main_call1_v7 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_call2_cst : Ref sig .tc := ⟨.hbm, 61, rfl⟩
abbrev main_call2_v0 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_call3_cst : Ref sig .tc := ⟨.hbm, 76, rfl⟩
abbrev main_call3_v0 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩

abbrev nD : Nat := 1
abbrev τ : Topo := Topo.v7x

variable {F : FTy → Type} [FloatOps F]

class Facts₀ : Prop where
  shapeCasts_S128x256x512_S32768x512 : S128x256x512.ShapeCasts S32768x512
  shapeCasts_S128x256x32_S32768x1x32 : S128x256x32.ShapeCasts S32768x1x32
  transposes_S256x512_S512x256_1_0 : S256x512.Transposes [1, 0] S512x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  transposes_S2048x256_S256x2048_1_0 : S2048x256.Transposes [1, 0] S256x2048
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  shapeCasts_S32768x2048_S32768x32x64 : S32768x2048.ShapeCasts S32768x32x64
  transposes_S64x512_S512x64_1_0 : S64x512.Transposes [1, 0] S512x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  shapeCasts_S32768x64_S32768x1x64 : S32768x64.ShapeCasts S32768x1x64
  bcast_S_S32768x1x64 : S_.BroadcastsInDim S32768x1x64 (![] : Fin 0 → Fin S32768x1x64.rank)
  transposes_S64x256_S256x64_1_0 : S64x256.Transposes [1, 0] S256x64
  shapeCasts_S32768x64_S32768x64x1 : S32768x64.ShapeCasts S32768x64x1
  bcast_S_S32768x64 : S_.BroadcastsInDim S32768x64 (![] : Fin 0 → Fin S32768x64.rank)
  transposes_S1x64_S64x1_1_0 : S1x64.Transposes [1, 0] S64x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  shapeCasts_S32768x1_S32768x1x1 : S32768x1.ShapeCasts S32768x1x1
  shapeCasts_S32768x1x1_S128x256x1 : S32768x1x1.ShapeCasts S128x256x1
  dot_S32768x512_S512x256_S32768x256_1_0_0_1_n_n_wf : DotDims.WF S32768x512 S512x256 S32768x256 [1] [0] [0] [1] [] []
  dot_S32768x256_S256x2048_S32768x2048_1_0_0_1_n_n_wf : DotDims.WF S32768x256 S256x2048 S32768x2048 [1] [0] [0] [1] [] []
  dot_S32768x512_S512x64_S32768x64_1_0_0_1_n_n_wf : DotDims.WF S32768x512 S512x64 S32768x64 [1] [0] [0] [1] [] []
  dot_S32768x1x32_S32768x32x64_S32768x1x64_2_1_1_2_0_0_wf : DotDims.WF S32768x1x32 S32768x32x64 S32768x1x64 [2] [1] [1] [2] [0] [0]
  dot_S32768x256_S256x64_S32768x64_1_0_0_1_n_n_wf : DotDims.WF S32768x256 S256x64 S32768x64 [1] [0] [0] [1] [] []
  dot_S32768x64_S64x1_S32768x1_1_0_0_1_n_n_wf : DotDims.WF S32768x64 S64x1 S32768x1 [1] [0] [0] [1] [] []
  dot_S32768x1x64_S32768x64x1_S32768x1x1_2_1_1_2_0_0_wf : DotDims.WF S32768x1x64 S32768x64x1 S32768x1x1 [2] [1] [1] [2] [0] [0]

variable [Facts₀]

def dot_S32768x512_S512x256_S32768x256_1_0_0_1_n_n : DotDims S32768x512 S512x256 S32768x256 where
  lhsContracting := [1]
  rhsContracting := [0]
  lhsNonContracting := [0]
  rhsNonContracting := [1]
  lhsBatch := []
  rhsBatch := []
  wf := dot_S32768x512_S512x256_S32768x256_1_0_0_1_n_n_wf
def dot_S32768x256_S256x2048_S32768x2048_1_0_0_1_n_n : DotDims S32768x256 S256x2048 S32768x2048 where
  lhsContracting := [1]
  rhsContracting := [0]
  lhsNonContracting := [0]
  rhsNonContracting := [1]
  lhsBatch := []
  rhsBatch := []
  wf := dot_S32768x256_S256x2048_S32768x2048_1_0_0_1_n_n_wf
def dot_S32768x512_S512x64_S32768x64_1_0_0_1_n_n : DotDims S32768x512 S512x64 S32768x64 where
  lhsContracting := [1]
  rhsContracting := [0]
  lhsNonContracting := [0]
  rhsNonContracting := [1]
  lhsBatch := []
  rhsBatch := []
  wf := dot_S32768x512_S512x64_S32768x64_1_0_0_1_n_n_wf
def dot_S32768x1x32_S32768x32x64_S32768x1x64_2_1_1_2_0_0 : DotDims S32768x1x32 S32768x32x64 S32768x1x64 where
  lhsContracting := [2]
  rhsContracting := [1]
  lhsNonContracting := [1]
  rhsNonContracting := [2]
  lhsBatch := [0]
  rhsBatch := [0]
  wf := dot_S32768x1x32_S32768x32x64_S32768x1x64_2_1_1_2_0_0_wf
def dot_S32768x256_S256x64_S32768x64_1_0_0_1_n_n : DotDims S32768x256 S256x64 S32768x64 where
  lhsContracting := [1]
  rhsContracting := [0]
  lhsNonContracting := [0]
  rhsNonContracting := [1]
  lhsBatch := []
  rhsBatch := []
  wf := dot_S32768x256_S256x64_S32768x64_1_0_0_1_n_n_wf
def dot_S32768x64_S64x1_S32768x1_1_0_0_1_n_n : DotDims S32768x64 S64x1 S32768x1 where
  lhsContracting := [1]
  rhsContracting := [0]
  lhsNonContracting := [0]
  rhsNonContracting := [1]
  lhsBatch := []
  rhsBatch := []
  wf := dot_S32768x64_S64x1_S32768x1_1_0_0_1_n_n_wf
def dot_S32768x1x64_S32768x64x1_S32768x1x1_2_1_1_2_0_0 : DotDims S32768x1x64 S32768x64x1 S32768x1x1 where
  lhsContracting := [2]
  rhsContracting := [1]
  lhsNonContracting := [1]
  rhsNonContracting := [2]
  lhsBatch := [0]
  rhsBatch := [0]
  wf := dot_S32768x1x64_S32768x64x1_S32768x1x1_2_1_1_2_0_0_wf

class Facts : Prop extends Facts₀ where

variable [Facts]
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.Spec.lean ====
/-
  The mixing network, one row at a time, on the extended reals.

  For one row of the flattened batch — a state vector `s` (512 entries) and the agents' values `q` (32 entries) — the
  network is

    h1 j   = max (s · w10 j + b10 j) 0                         (256 hidden units)
    w1 a e = | h1 · w12 (64 a + e) + b12 (64 a + e) |          (32 × 64 nonnegative mixing weights)
    b1 e   = s · hbw e + hbb e
    hid e  = elu ((∑ a, q a * w1 a e) + b1 e)
    hf j   = max (s · wf0 j + bf0 j) 0
    wfin e = | hf · wf2 e + bf2 e |
    vh e   = max (s · v0w e + v0b e) 0
    v      = (∑ e, vh e * v2w e) + v2b
    y      = (∑ e, hid e * wfin e) + v

  with `x · w + b` the finite sum `(∑ k, x k * w k) + b`.  Sums on the extended reals are sums in a commutative monoid,
  so the order, grouping and tiling of a sum do not matter, and nothing here needs an entry to be finite.  The zero and
  the one are kept as the f32 words both programs print; the same word on both sides is never evaluated, except the
  unit factor of the exponential linear unit, which is the extended real 1.
-/
import Idealize.ShloMosaic.PureOps.Ideal
import Idealize.ShloMosaic.PureOps.Ideal.Laws
import Idealize.ShloMosaic.PureOps.IdealRules
import Idealize.ShloMosaic.Lib.ValueIdx

noncomputable section

namespace Cert.Qmix

open Idealize.ShloMosaic Idealize.ShloMosaic.ValueIdx

/-- The value of the f32 zero word. -/
abbrev Z : EReal := Ideal.ofBits .f32 0x00000000#32
/-- The value of the f32 word of 1.0. -/
abbrev One : EReal := Ideal.ofBits .f32 0x3F800000#32

/-- `x · w + b`. -/
def dense {K : ℕ} (x w : Fin K → EReal) (b : EReal) : EReal := (∑ k : Fin K, x k * w k) + b

/-- The rectifier against the zero word. -/
def relu (x : EReal) : EReal := max x Z

/-- The absolute value as both programs take it. -/
def abs' (x : EReal) : EReal := max x (-x)

/-- The exponential linear unit: the identity above the zero word, `exp x - 1` elsewhere. -/
def elu (x : EReal) : EReal := if x > Z then x else Ideal.exp x - One

/-- Position `64 a + e` of a row of 2048 mixing weights. -/
def flat (a : Fin 32) (e : Fin 64) : Fin 2048 := ⟨64 * a.val + e.val, by have := a.isLt; have := e.isLt; omega⟩

/-- The network's output for one row. -/
def row (s : Fin 512 → EReal) (q : Fin 32 → EReal)
    (w10 : Fin 256 → Fin 512 → EReal) (b10 : Fin 256 → EReal)
    (w12 : Fin 2048 → Fin 256 → EReal) (b12 : Fin 2048 → EReal)
    (wf0 : Fin 256 → Fin 512 → EReal) (bf0 : Fin 256 → EReal)
    (wf2 : Fin 64 → Fin 256 → EReal) (bf2 : Fin 64 → EReal)
    (hbw : Fin 64 → Fin 512 → EReal) (hbb : Fin 64 → EReal)
    (v0w : Fin 64 → Fin 512 → EReal) (v0b : Fin 64 → EReal)
    (v2w : Fin 64 → EReal) (v2b : EReal) : EReal :=
  let h1 : Fin 256 → EReal := fun j => relu (dense s (w10 j) (b10 j))
  let w1 : Fin 32 → Fin 64 → EReal := fun a e => abs' (dense h1 (w12 (flat a e)) (b12 (flat a e)))
  let b1 : Fin 64 → EReal := fun e => dense s (hbw e) (hbb e)
  let hid : Fin 64 → EReal := fun e => elu ((∑ a : Fin 32, q a * w1 a e) + b1 e)
  let hf : Fin 256 → EReal := fun j => relu (dense s (wf0 j) (bf0 j))
  let wfin : Fin 64 → EReal := fun e => abs' (dense hf (wf2 e) (bf2 e))
  let vh : Fin 64 → EReal := fun e => relu (dense s (v0w e) (v0b e))
  let v : EReal := (∑ e : Fin 64, vh e * v2w e) + v2b
  (∑ e : Fin 64, hid e * wfin e) + v

/-- The network's output for row `(b, t)` of the batch, from the sixteen argument arrays: the row's state vector and agent
    values, and every weight and bias whole. -/
def out (a0 : (⟨3, ![128, 256, 32]⟩ : Shape).Idx → EReal) (a1 : (⟨3, ![128, 256, 512]⟩ : Shape).Idx → EReal)
    (a2 : (⟨2, ![256, 512]⟩ : Shape).Idx → EReal) (a3 : (⟨1, ![256]⟩ : Shape).Idx → EReal)
    (a4 : (⟨2, ![2048, 256]⟩ : Shape).Idx → EReal) (a5 : (⟨1, ![2048]⟩ : Shape).Idx → EReal)
    (a6 : (⟨2, ![256, 512]⟩ : Shape).Idx → EReal) (a7 : (⟨1, ![256]⟩ : Shape).Idx → EReal)
    (a8 : (⟨2, ![64, 256]⟩ : Shape).Idx → EReal) (a9 : (⟨1, ![64]⟩ : Shape).Idx → EReal)
    (a10 : (⟨2, ![64, 512]⟩ : Shape).Idx → EReal) (a11 : (⟨1, ![64]⟩ : Shape).Idx → EReal)
    (a12 : (⟨2, ![64, 512]⟩ : Shape).Idx → EReal) (a13 : (⟨1, ![64]⟩ : Shape).Idx → EReal)
    (a14 : (⟨2, ![1, 64]⟩ : Shape).Idx → EReal) (a15 : (⟨1, ![1]⟩ : Shape).Idx → EReal)
    (b : Fin 128) (t : Fin 256) : EReal :=
  row (fun k => a1 (ix3 b t k)) (fun a => a0 (ix3 b t a))
    (fun j k => a2 (ix2 j k)) (fun j => a3 (ix1 j))
    (fun n j => a4 (ix2 n j)) (fun n => a5 (ix1 n))
    (fun j k => a6 (ix2 j k)) (fun j => a7 (ix1 j))
    (fun e j => a8 (ix2 e j)) (fun e => a9 (ix1 e))
    (fun e k => a10 (ix2 e k)) (fun e => a11 (ix1 e))
    (fun e k => a12 (ix2 e k)) (fun e => a13 (ix1 e))
    (fun e => a14 (ix2 0 e)) (a15 (ix1 0))

/-- The result array [128, 256, 1]: entry `(b, t, 0)` is row `(b, t)`'s output. -/
def outArr (a0 : (⟨3, ![128, 256, 32]⟩ : Shape).Idx → EReal) (a1 : (⟨3, ![128, 256, 512]⟩ : Shape).Idx → EReal)
    (a2 : (⟨2, ![256, 512]⟩ : Shape).Idx → EReal) (a3 : (⟨1, ![256]⟩ : Shape).Idx → EReal)
    (a4 : (⟨2, ![2048, 256]⟩ : Shape).Idx → EReal) (a5 : (⟨1, ![2048]⟩ : Shape).Idx → EReal)
    (a6 : (⟨2, ![256, 512]⟩ : Shape).Idx → EReal) (a7 : (⟨1, ![256]⟩ : Shape).Idx → EReal)
    (a8 : (⟨2, ![64, 256]⟩ : Shape).Idx → EReal) (a9 : (⟨1, ![64]⟩ : Shape).Idx → EReal)
    (a10 : (⟨2, ![64, 512]⟩ : Shape).Idx → EReal) (a11 : (⟨1, ![64]⟩ : Shape).Idx → EReal)
    (a12 : (⟨2, ![64, 512]⟩ : Shape).Idx → EReal) (a13 : (⟨1, ![64]⟩ : Shape).Idx → EReal)
    (a14 : (⟨2, ![1, 64]⟩ : Shape).Idx → EReal) (a15 : (⟨1, ![1]⟩ : Shape).Idx → EReal) :
    (⟨3, ![128, 256, 1]⟩ : Shape).Idx → EReal :=
  fun i => out a0 a1 a2 a3 a4 a5 a6 a7 a8 a9 a10 a11 a12 a13 a14 a15 (i 0) (i 1)

/-- The f32 word of 1.0 is the extended real 1. -/
theorem one_eq : One = 1 := IdealRules.sign_bit.ideal_onePat .f32

/-- The kernel's spelling of the unit: above zero the argument, elsewhere `exp (min x 0) - 1`. -/
theorem elu_min (x : EReal) : (if x > Z then x else Ideal.exp (min x Z) - One) = elu x := by
  unfold elu
  by_cases h : x > Z
  · rw [if_pos h, if_pos h]
  · rw [if_neg h, if_neg h, min_eq_left (not_lt.mp h)]

/-- The reference's spelling: above zero the argument, elsewhere `1 * (exp x' - 1)` with `x'` the argument where it is
    not above zero (and zero where it is, which is never read). -/
theorem elu_where (x : EReal) :
    (if x > Z then x else One * (Ideal.exp (if x > Z then Z else x) - One)) = elu x := by
  unfold elu
  by_cases h : x > Z
  · rw [if_pos h, if_pos h]
  · rw [if_neg h, if_neg h, if_neg h, one_eq, one_mul]

end Cert.Qmix

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.KGen.lean ====
/-
  Readings, at an index, of the vector-unit operations the mixing kernel's body is made of, on the extended reals:
  a dense layer `x · wᵀ + b` (a matrix product into a zero accumulator against the transposed weight, plus a bias row),
  the rectifier, the absolute value, and the casts and broadcasts that carry the agents' values `q` to the
  `[rows, 32 · 64]` layout of the mixing weights and back.
-/
import proofs.«150677_j13563506720937_2_alg».proof.Proof.LibDense
import proofs.«150677_j13563506720937_2_alg».proof.Proof.Spec
import proofs.«150677_j13563506720937_2_alg».proof.Proof.LibAxisSum
import Idealize.ShloMosaic.Lib.ValueLayout

noncomputable section

namespace Cert.Qmix

open Idealize.ShloMosaic Idealize.ShloMosaic.ValueIdx

/-- A dense layer as the vector unit computes it: the product of `x : [M, K]` with the transpose of `w : [N, K]` into a
    zero accumulator, plus the bias row `b : [1, N]` broadcast down the rows, at entry `(p, j)`. -/
theorem kdense {M K N : ℕ} {φ₁ φ₂ : FTy} (x : FVec Ideal ⟨2, ![M, K]⟩ φ₁) (w : FVec Ideal ⟨2, ![N, K]⟩ φ₂)
    (b : FVec Ideal ⟨2, ![1, N]⟩ .f32)
    (ht : (⟨2, ![N, K]⟩ : Shape).Transposes [1, 0] ⟨2, ![K, N]⟩) (hb : (⟨2, ![1, N]⟩ : Shape).Broadcasts ⟨2, ![M, N]⟩)
    (p : Fin M) (j : Fin N) :
    addf (matmul (DotDims.plain M K N) none x (transpose ⟨2, ![K, N]⟩ [1, 0] w ht) (constant ⟨2, ![M, N]⟩ .f32 0x00000000#32))
      (broadcastTo ⟨2, ![M, N]⟩ b hb) (ix2 p j)
      = dense (fun k => x (ix2 p k)) (fun k => w (ix2 j k)) (b (ix2 0 j)) := by
  rw [addf_apply, broadcastTo_1b_ab_apply]
  refine congrArg (· + b (ix2 0 j)) ?_
  refine (LibDense.matmul_plain x _ (ix2 p j)).trans ?_
  unfold LibDense.prod
  refine Finset.sum_congr rfl fun k _ => ?_
  exact congrArg (x (ix2 p k) * ·) (transpose_ix2_apply w ht k j)

/-- The host's spelling of the same layer: `dot_general` of `x` with the transposed weight, plus the bias `b : [N]`
    broadcast to a row and then down the rows. -/
theorem hdense {M K N : ℕ} (sched : HostSchedule) (x : (⟨2, ![M, K]⟩ : Shape).Idx → EReal) (w : (⟨2, ![N, K]⟩ : Shape).Idx → EReal)
    (ht : (⟨2, ![N, K]⟩ : Shape).Transposes [1, 0] ⟨2, ![K, N]⟩) (p : Fin M) (j : Fin N) :
    FloatOps.dotGeneral (F := Ideal) (φ₁ := .f32) (φ₂ := .f32) (DotDims.plain M K N) none sched x
        (transpose ⟨2, ![K, N]⟩ [1, 0] w ht) (ix2 p j)
      = ∑ k : Fin K, x (ix2 p k) * w (ix2 j k) := by
  refine (LibDense.dotGeneral_plain sched x _ (ix2 p j)).trans ?_
  unfold LibDense.prod
  refine Finset.sum_congr rfl fun k _ => ?_
  exact congrArg (x (ix2 p k) * ·) (transpose_ix2_apply w ht k j)

/-- The additive reduction of `[n, a, d]` along its middle axis, at `(r, e)`, is `∑ k, src (r, k, e)`: the accumulator word
    is addition's neutral element, so no initial value appears. -/
theorem sum_mid {n a d : ℕ} {φ : FTy} (src : FVec Ideal ⟨3, ![n, a, d]⟩ φ) (acc : BitVec φ.bits)
    (h : Shape.Reduces ⟨3, ![n, a, d]⟩ [1] ⟨2, ![n, d]⟩) (hφ : FKind.Formats φ) (hacc : acc = FKind.add.neutral φ hφ)
    (r : Fin n) (e : Fin d) :
    multiReduction .add [1] ⟨2, ![n, d]⟩ src acc h hφ hacc (ix2 r e) = ∑ k : Fin a, src (ix3 r k e) := by
  refine (Ideal.multiReduction_add_single src acc h hφ hacc (ix2 r e)).trans ?_
  refine Finset.sum_congr rfl fun k _ => congrArg src (funext fun ax => Fin.ext ?_)
  match ax with
  | ⟨0, _⟩ => rfl
  | ⟨1, _⟩ => rfl
  | ⟨2, _⟩ => rfl

section Layout
variable {α : Type}

/-- A row of 2048 entries viewed as 32 groups of 64: entry `(a, e)` is entry `64 a + e` of the row. -/
theorem cast_to_groups (x : (⟨2, ![1024, 2048]⟩ : Shape).Idx → α)
    (h : (⟨2, ![1024, 2048]⟩ : Shape).ShapeCasts ⟨3, ![1024, 32, 64]⟩) (p : Fin 1024) (a : Fin 32) (e : Fin 64) :
    shapeCast ⟨3, ![1024, 32, 64]⟩ x h (ix3 p a e) = x (ix2 p (flat a e)) :=
  shapeCast_apply x h _ _ (by
    rw [Shape.rowMajor_val_two, Shape.rowMajor_val_three]
    show p.val * 2048 + (64 * a.val + e.val) = (p.val * 32 + a.val) * 64 + e.val
    omega)

/-- And back: entry `64 a + e` of the flattened row is entry `(a, e)`. -/
theorem cast_to_flat (x : (⟨3, ![1024, 32, 64]⟩ : Shape).Idx → α)
    (h : (⟨3, ![1024, 32, 64]⟩ : Shape).ShapeCasts ⟨2, ![1024, 2048]⟩) (p : Fin 1024) (a : Fin 32) (e : Fin 64) :
    shapeCast ⟨2, ![1024, 2048]⟩ x h (ix2 p (flat a e)) = x (ix3 p a e) :=
  shapeCast_apply x h _ _ (by
    rw [Shape.rowMajor_val_two, Shape.rowMajor_val_three]
    show (p.val * 32 + a.val) * 64 + e.val = p.val * 2048 + (64 * a.val + e.val)
    omega)

/-- A trailing unit axis added to `[1024, 32]`. -/
theorem cast_add_unit (x : (⟨2, ![1024, 32]⟩ : Shape).Idx → α)
    (h : (⟨2, ![1024, 32]⟩ : Shape).ShapeCasts ⟨3, ![1024, 32, 1]⟩) (p : Fin 1024) (a : Fin 32) :
    shapeCast ⟨3, ![1024, 32, 1]⟩ x h (ix3 p a (0 : Fin 1)) = x (ix2 p a) :=
  shapeCast_apply x h _ _ (by
    rw [Shape.rowMajor_val_two, Shape.rowMajor_val_three]
    show p.val * 32 + a.val = (p.val * 32 + a.val) * 1 + 0
    omega)

/-- The trailing unit axis broadcast to 64 columns: every column reads the one entry. -/
theorem bcast_unit_last (x : (⟨3, ![1024, 32, 1]⟩ : Shape).Idx → α)
    (h : (⟨3, ![1024, 32, 1]⟩ : Shape).Broadcasts ⟨3, ![1024, 32, 64]⟩) (p : Fin 1024) (a : Fin 32) (e : Fin 64) :
    broadcastTo ⟨3, ![1024, 32, 64]⟩ x h (ix3 p a e) = x (ix3 p a (0 : Fin 1)) :=
  broadcastTo_apply x h _ _ fun ax => match ax with
    | ⟨0, _⟩ => rfl
    | ⟨1, _⟩ => rfl
    | ⟨2, _⟩ => rfl

/-- A vector of 1024 entries as a column. -/
theorem cast_col (x : (⟨1, ![1024]⟩ : Shape).Idx → α) (h : (⟨1, ![1024]⟩ : Shape).ShapeCasts ⟨2, ![1024, 1]⟩) (p : Fin 1024) :
    shapeCast ⟨2, ![1024, 1]⟩ x h (ix2 p (0 : Fin 1)) = x (ix1 p) :=
  shapeCast_apply x h _ _ (by
    rw [Shape.rowMajor_val_two, Shape.rowMajor_val_one]
    show p.val = p.val * 1 + 0
    omega)

/-- And the column as a vector again. -/
theorem cast_uncol (x : (⟨2, ![1024, 1]⟩ : Shape).Idx → α) (h : (⟨2, ![1024, 1]⟩ : Shape).ShapeCasts ⟨1, ![1024]⟩) (p : Fin 1024) :
    shapeCast ⟨1, ![1024]⟩ x h (ix1 p) = x (ix2 p (0 : Fin 1)) :=
  shapeCast_apply x h _ _ (by
    rw [Shape.rowMajor_val_two, Shape.rowMajor_val_one]
    show p.val * 1 + 0 = p.val
    omega)

/-- A `[1, 1]` array broadcast down a column: every entry reads the one entry. -/
theorem bcast_one (x : (⟨2, ![1, 1]⟩ : Shape).Idx → α) (h : (⟨2, ![1, 1]⟩ : Shape).Broadcasts ⟨2, ![1024, 1]⟩) (p : Fin 1024) :
    broadcastTo ⟨2, ![1024, 1]⟩ x h (ix2 p (0 : Fin 1)) = x (ix2 (0 : Fin 1) (0 : Fin 1)) :=
  broadcastTo_apply x h _ _ fun ax => match ax with
    | ⟨0, _⟩ => rfl
    | ⟨1, _⟩ => rfl

end Layout

end Cert.Qmix

end
-- ==== Proof.KPay.lean ====
/-
  The mixing kernel's body, read one row at a time.

  The body loads a block of 1024 state rows `x0`, the matching block of agent values `x1`, and every weight and bias
  whole, and stores one number per row.  Each stage below is read at an index of the block; together they say that the
  stored value for row `p` of the block is `Cert.Qmix.row` of that row of the two blocks and of the weights — the
  mixing network for one row.  The rounding of the matrix products' operands to bf16 is the identity on the extended
  reals, a cast to the same shape is the identity, and every sum is a finite sum in a commutative monoid.
-/
import proofs.«150677_j13563506720937_2_alg».proof.Proof.Gen.KernelIdeal.Skeleton
import proofs.«150677_j13563506720937_2_alg».proof.Proof.KGen

noncomputable section

namespace Cert.KernelIdeal.Pay

open Cert.KernelIdeal Cert.KernelIdeal.Gen Cert.Qmix Idealize.ShloMosaic Idealize.ShloMosaic.ValueIdx

/-- The state block rounded for the matrix products is the state block. -/
theorem pay2_apply (v0 : FVec Ideal S1024x512 .f32) (i : S1024x512.Idx) : k0_pay2 (F := Ideal) v0 i = v0 i :=
  congrFun (shapeCast_self v0 shapeCasts_S1024x512_S1024x512) i

/-- A rectified dense layer of 256 units over the state block, at `(p, j)`. -/
theorem hidden_apply (x : FVec Ideal S1024x512 .bf16) (w : FVec Ideal S256x512 .bf16) (b : FVec Ideal S1x256 .f32)
    (p : Fin 1024) (j : Fin 256) :
    maximumf (addf (matmul dot_S1024x512_S512x256_S1024x256_1_0_0_1_n_n none x
        (transpose S512x256 [1, 0] w transposes_S256x512_p1_0_S512x256) (constant S1024x256 .f32 0x00000000#32))
        (broadcastTo S1024x256 b broadcasts_S1x256_S1024x256))
      (broadcast S1024x256 (Scalar.ofBits .f32 0x00000000#32)) (ix2 p j)
      = relu (dense (fun k => x (ix2 p k)) (fun k => w (ix2 j k)) (b (ix2 0 j))) :=
  congrArg relu (kdense x w b _ _ p j)

/-- The bias of the hidden mixing layer, `b1 (p, e)`. -/
theorem pay3_apply (v0 : FVec Ideal S1024x512 .f32) (v25 : FVec Ideal S64x512 .bf16) (v27 : FVec Ideal S1x64 .f32)
    (p : Fin 1024) (e : Fin 64) :
    k0_pay3 (F := Ideal) v0 v25 v27 (ix2 p e) = dense (fun k => v0 (ix2 p k)) (fun k => v25 (ix2 e k)) (v27 (ix2 0 e)) := by
  unfold k0_pay3
  dsimp only
  rw [shapeCast_self, shapeCast_self]
  refine (kdense (k0_pay2 v0) v25 v27 _ _ p e).trans ?_
  simp only [pay2_apply]

/-- The value head's hidden layer before the rectifier. -/
theorem pay7_apply (v4 : FVec Ideal S1024x512 .bf16) (v69 : FVec Ideal S64x512 .bf16) (v71 : FVec Ideal S1x64 .f32)
    (p : Fin 1024) (e : Fin 64) :
    k0_pay7 (F := Ideal) v4 v69 v71 (ix2 p e) = dense (fun k => v4 (ix2 p k)) (fun k => v69 (ix2 e k)) (v71 (ix2 0 e)) := by
  unfold k0_pay7
  dsimp only
  rw [shapeCast_self, shapeCast_self]
  exact kdense v4 v69 v71 _ _ p e

/-- The final mixing weights `wfin (p, e)`. -/
theorem pay6_apply (v4 : FVec Ideal S1024x512 .bf16) (v49 : FVec Ideal S256x512 .bf16) (v51 : FVec Ideal S1x256 .f32)
    (v59 : FVec Ideal S64x256 .bf16) (v61 : FVec Ideal S1x64 .f32) (p : Fin 1024) (e : Fin 64) :
    k0_pay6 (F := Ideal) v4 v49 v51 v59 v61 (ix2 p e)
      = abs' (dense (fun j => relu (dense (fun k => v4 (ix2 p k)) (fun k => v49 (ix2 j k)) (v51 (ix2 0 j))))
          (fun j => v59 (ix2 e j)) (v61 (ix2 0 e))) := by
  unfold k0_pay6
  dsimp only
  rw [shapeCast_self, shapeCast_self, shapeCast_self, shapeCast_self]
  refine congrArg abs' ((kdense _ v59 v61 _ _ p e).trans ?_)
  exact congrArg (fun f => dense f (fun j => v59 (ix2 e j)) (v61 (ix2 0 e))) (funext fun j => hidden_apply v4 v49 v51 p j)

/-- The agents' values times the hidden mixing weights, `q (p, a) * w1 (p, a, e)`. -/
theorem pay4_apply (v0 : FVec Ideal S1024x512 .f32) (v2 : FVec Ideal S1024x32 .f32) (v5 : FVec Ideal S256x512 .bf16)
    (v7 : FVec Ideal S1x256 .f32) (v15 : FVec Ideal S2048x256 .bf16) (v17 : FVec Ideal S1x2048 .f32)
    (p : Fin 1024) (a : Fin 32) (e : Fin 64) :
    k0_pay4 (F := Ideal) v0 v2 v5 v7 v15 v17 (ix3 p a e)
      = v2 (ix2 p a) * abs' (dense (fun j => relu (dense (fun k => v0 (ix2 p k)) (fun k => v5 (ix2 j k)) (v7 (ix2 0 j))))
          (fun j => v15 (ix2 (flat a e) j)) (v17 (ix2 0 (flat a e)))) := by
  unfold k0_pay4
  dsimp only
  rw [shapeCast_self, shapeCast_self, shapeCast_self, shapeCast_self, shapeCast_self, shapeCast_self]
  refine (cast_to_groups _ _ p a e).trans ?_
  refine congrArg₂ (· * ·) ?_ ?_
  · refine (cast_to_flat _ _ p a e).trans ?_
    refine (bcast_unit_last _ _ p a e).trans ?_
    exact cast_add_unit v2 _ p a
  · refine congrArg abs' ((kdense _ v15 v17 _ _ p (flat a e)).trans ?_)
    refine congrArg (fun f => dense f (fun j => v15 (ix2 (flat a e) j)) (v17 (ix2 0 (flat a e)))) (funext fun j => ?_)
    refine (hidden_apply (k0_pay2 v0) v5 v7 p j).trans ?_
    simp only [pay2_apply]

/-- A select on a "greater than" comparison of extended reals is the conditional on the order. -/
theorem select_gt (x y a b : EReal) : Scalar.select (Ideal.cmp .ogt x y) a b = if x > y then a else b := by
  unfold Scalar.select Ideal.cmp
  by_cases h : y < x
  · simp [h]
  · simp [h]

/-- The hidden mixing layer: the exponential linear unit of the agent-weighted sum plus its bias. -/
theorem pay5_apply (v32 : FVec Ideal S1024x64 .f32) (v38 : FVec Ideal S1024x32x64 .f32) (p : Fin 1024) (e : Fin 64) :
    k0_pay5 (F := Ideal) v32 v38 (ix2 p e) = elu ((∑ a : Fin 32, v38 (ix3 p a e)) + v32 (ix2 p e)) := by
  unfold k0_pay5
  dsimp only
  have h40 : (addf (multiReduction .add [1] S1024x64 v38 0x00000000#32 reduces_S1024x32x64_S1024x64 (.inl rfl) rfl) v32) (ix2 p e)
      = (∑ a : Fin 32, v38 (ix3 p a e)) + v32 (ix2 p e) :=
    congrArg (· + v32 (ix2 p e)) (sum_mid v38 _ _ _ _ p e)
  refine Eq.trans ?_ (elu_min _)
  rw [← h40]
  exact select_gt _ _ _ _

/-- The stored value for row `p`: the mixed hidden layer plus the value head. -/
theorem pay1_apply (v48 v68 v76 v77 : FVec Ideal S1024x64 .f32) (v79 : FVec Ideal S1x64 .f32) (v80 : FVec Ideal S1x1 .f32)
    (p : Fin 1024) :
    k0_pay1 (F := Ideal) v48 v68 v76 v77 v79 v80 (ix1 p)
      = (∑ e : Fin 64, v48 (ix2 p e) * v68 (ix2 p e))
        + ((∑ e : Fin 64, max (v76 (ix2 p e)) (v77 (ix2 p e)) * v79 (ix2 0 e)) + v80 (ix2 0 0)) := by
  unfold k0_pay1
  dsimp only
  rw [shapeCast_self]
  refine (cast_uncol _ _ p).trans ?_
  refine congrArg₂ (· + ·) ?_ (congrArg₂ (· + ·) ?_ ?_)
  · refine (cast_col _ _ p).trans ?_
    exact LibAxisSum.sum_last _ _ _ _ _ p
  · refine (cast_col _ _ p).trans ?_
    refine (LibAxisSum.sum_last _ _ _ _ _ p).trans ?_
    exact Finset.sum_congr rfl fun k _ =>
      congrArg (max (v76 (ix2 p k)) (v77 (ix2 p k)) * ·) (broadcastTo_1b_ab_apply v79 _ p k)
  · exact bcast_one v80 _ p

end Cert.KernelIdeal.Pay

end
-- ==== Proof.KRow.lean ====
/-
  What the mixing kernel's body leaves in its output block: for every row `p` of the block, `Cert.Qmix.row` of that row
  of the state block and of the agent-value block, and of the weights and biases as the body loads them (each bias a
  `[1, n]` row).  The body has one store, through the whole output block, and every load is through a whole block,
  so the block's contents after the body are the stored value and each loaded value is the block itself; the stages
  of the stored value are the readings of the module `KPay`.
-/
import proofs.«150677_j13563506720937_2_alg».proof.Proof.Gen.KernelIdeal.Frame
import proofs.«150677_j13563506720937_2_alg».proof.Proof.KPay

noncomputable section

namespace Cert.KernelIdeal.Pay

open Cert.KernelIdeal Cert.KernelIdeal.Gen Cert.Qmix Idealize.ShloMosaic Idealize.ShloMosaic.ValueIdx

theorem hz1 : (![0] : Fin 1 → Nat) = fun _ => 0 := funext fun a => by fin_cases a; rfl
theorem hz2 : (![0, 0] : Fin 2 → Nat) = fun _ => 0 := funext fun a => by fin_cases a <;> rfl

/-- The output block after the body, at row `p`. -/
theorem out_row (x0 : FVec Ideal S1024x512 .f32) (x1 : FVec Ideal S1024x32 .f32) (x2 : FVec Ideal S256x512 .bf16)
    (x3 : FVec Ideal S1x256 .f32) (x4 : FVec Ideal S2048x256 .bf16) (x5 : FVec Ideal S1x2048 .f32)
    (x6 : FVec Ideal S256x512 .bf16) (x7 : FVec Ideal S1x256 .f32) (x8 : FVec Ideal S64x256 .bf16)
    (x9 : FVec Ideal S1x64 .f32) (x10 : FVec Ideal S64x512 .bf16) (x11 : FVec Ideal S1x64 .f32)
    (x12 : FVec Ideal S64x512 .bf16) (x13 : FVec Ideal S1x64 .f32) (x14 : FVec Ideal S1x64 .f32)
    (x15 : FVec Ideal S1x1 .f32) (p : Fin 1024) :
    out0_16 (F := Ideal) x0 x1 x2 x3 x4 x5 x6 x7 x8 x9 x10 x11 x12 x13 x14 x15 (ix1 p)
      = row (fun k => x0 (ix2 p k)) (fun a => x1 (ix2 p a))
          (fun j k => x2 (ix2 j k)) (fun j => x3 (ix2 0 j))
          (fun n j => x4 (ix2 n j)) (fun n => x5 (ix2 0 n))
          (fun j k => x6 (ix2 j k)) (fun j => x7 (ix2 0 j))
          (fun e j => x8 (ix2 e j)) (fun e => x9 (ix2 0 e))
          (fun e k => x10 (ix2 e k)) (fun e => x11 (ix2 0 e))
          (fun e k => x12 (ix2 e k)) (fun e => x13 (ix2 0 e))
          (fun e => x14 (ix2 0 e)) (x15 (ix2 0 0)) := by
  unfold out0_16
  rw [View.canon_unit_zero hz1]
  simp only [View.ld_unit_zero (S := S1024x512) hz2, View.ld_unit_zero (S := S1024x32) hz2, View.ld_unit_zero (S := S256x512) hz2, View.ld_unit_zero (S := S1x256) hz2, View.ld_unit_zero (S := S2048x256) hz2, View.ld_unit_zero (S := S1x2048) hz2, View.ld_unit_zero (S := S64x512) hz2, View.ld_unit_zero (S := S1x64) hz2, View.ld_unit_zero (S := S64x256) hz2, View.ld_unit_zero (S := S1x1) hz2]
  refine (pay1_apply _ _ _ _ _ _ p).trans ?_
  unfold row
  dsimp only
  refine congrArg₂ (· + ·) (Finset.sum_congr rfl fun e _ => congrArg₂ (· * ·) ?_ ?_)
    (congrArg (· + x15 (ix2 0 0)) (Finset.sum_congr rfl fun e _ => congrArg (· * x14 (ix2 0 e)) ?_))
  · refine (pay5_apply _ _ p e).trans ?_
    exact congrArg elu (congrArg₂ (· + ·) (Finset.sum_congr rfl fun a _ => pay4_apply x0 x1 x2 x3 x4 x5 p a e)
      (pay3_apply x0 x10 x11 p e))
  · refine (pay6_apply (k0_pay2 x0) x6 x7 x8 x9 p e).trans ?_
    simp only [pay2_apply]
  · refine congrArg relu ((pay7_apply (k0_pay2 x0) x12 x13 p e).trans ?_)
    simp only [pay2_apply]

end Cert.KernelIdeal.Pay

end
-- ==== Proof.KBlocks.lean ====
/-
  From blocks to the array, and the lines of the program around the kernel.

  The program reshapes the states to `[32768, 512]` and the agents' values to `[32768, 32]` (row `r = 256 b + t` of the
  flattened batch), rounds the six weight matrices to bf16 (the identity on the extended reals), views each bias as a
  `[1, n]` row, launches the kernel over 32 blocks of 1024 rows, and reshapes the `[32768]` result to `[128, 256, 1]`.
  Grid point `t` stages rows `1024 t … 1024 t + 1023` of the two row arrays and every weight and bias whole, and writes
  back block `t` of the result; the 32 blocks tile the result, so the result array is, row by row, the mixing network
  of that row (`Cert.Qmix.out`), and the final reshape reads row `256 b + t` at `(b, t, 0)`.
-/
import proofs.«150677_j13563506720937_2_alg».proof.Proof.Gen.KernelIdeal.Frame
import proofs.«150677_j13563506720937_2_alg».proof.Proof.KRow
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The arrays the kernel is launched on -/

theorem V_v0 (c : Dev nD) : (V m c main_v0 : S32768x512.Idx → EReal)
    = shapeCast S32768x512 (m ((c : Thread nD τ).loc main_arg1)) shapeCasts_S128x256x512_S32768x512 := by
  show StableHlo.after hostOps0 (fun b => m (c, b)) (Proc.devRef .tc main_v0) = _
  after_results
  rfl

theorem V_v1 (c : Dev nD) : (V m c main_v1 : S32768x32.Idx → EReal)
    = shapeCast S32768x32 (m ((c : Thread nD τ).loc main_arg0)) shapeCasts_S128x256x32_S32768x32 := by
  show StableHlo.after hostOps0 (fun b => m (c, b)) (Proc.devRef .tc main_v1) = _
  after_results
  rfl

theorem V_v2 (c : Dev nD) : (V m c main_v2 : S256x512.Idx → EReal) = (m ((c : Thread nD τ).loc main_arg2)) := by
  show StableHlo.after hostOps0 (fun b => m (c, b)) (Proc.devRef .tc main_v2) = _
  after_results
  rfl

theorem V_v3 (c : Dev nD) : (V m c main_v3 : S2048x256.Idx → EReal) = (m ((c : Thread nD τ).loc main_arg4)) := by
  show StableHlo.after hostOps0 (fun b => m (c, b)) (Proc.devRef .tc main_v3) = _
  after_results
  rfl

theorem V_v4 (c : Dev nD) : (V m c main_v4 : S256x512.Idx → EReal) = (m ((c : Thread nD τ).loc main_arg6)) := by
  show StableHlo.after hostOps0 (fun b => m (c, b)) (Proc.devRef .tc main_v4) = _
  after_results
  rfl

theorem V_v5 (c : Dev nD) : (V m c main_v5 : S64x256.Idx → EReal) = (m ((c : Thread nD τ).loc main_arg8)) := by
  show StableHlo.after hostOps0 (fun b => m (c, b)) (Proc.devRef .tc main_v5) = _
  after_results
  rfl

theorem V_v6 (c : Dev nD) : (V m c main_v6 : S64x512.Idx → EReal) = (m ((c : Thread nD τ).loc main_arg10)) := by
  show StableHlo.after hostOps0 (fun b => m (c, b)) (Proc.devRef .tc main_v6) = _
  after_results
  rfl

theorem V_v7 (c : Dev nD) : (V m c main_v7 : S64x512.Idx → EReal) = (m ((c : Thread nD τ).loc main_arg12)) := by
  show StableHlo.after hostOps0 (fun b => m (c, b)) (Proc.devRef .tc main_v7) = _
  after_results
  rfl

theorem V_v8 (c : Dev nD) : (V m c main_v8 : S1x256.Idx → EReal) = shapeCast S1x256 (m ((c : Thread nD τ).loc main_arg3)) shapeCasts_S256_S1x256 := by
  show StableHlo.after hostOps0 (fun b => m (c, b)) (Proc.devRef .tc main_v8) = _
  after_results
  rfl

theorem V_v9 (c : Dev nD) : (V m c main_v9 : S1x2048.Idx → EReal) = shapeCast S1x2048 (m ((c : Thread nD τ).loc main_arg5)) shapeCasts_S2048_S1x2048 := by
  show StableHlo.after hostOps0 (fun b => m (c, b)) (Proc.devRef .tc main_v9) = _
  after_results
  rfl

theorem V_v10 (c : Dev nD) : (V m c main_v10 : S1x256.Idx → EReal) = shapeCast S1x256 (m ((c : Thread nD τ).loc main_arg7)) shapeCasts_S256_S1x256 := by
  show StableHlo.after hostOps0 (fun b => m (c, b)) (Proc.devRef .tc main_v10) = _
  after_results
  rfl

theorem V_v11 (c : Dev nD) : (V m c main_v11 : S1x64.Idx → EReal) = shapeCast S1x64 (m ((c : Thread nD τ).loc main_arg9)) shapeCasts_S64_S1x64 := by
  show StableHlo.after hostOps0 (fun b => m (c, b)) (Proc.devRef .tc main_v11) = _
  after_results
  rfl

theorem V_v12 (c : Dev nD) : (V m c main_v12 : S1x64.Idx → EReal) = shapeCast S1x64 (m ((c : Thread nD τ).loc main_arg11)) shapeCasts_S64_S1x64 := by
  show StableHlo.after hostOps0 (fun b => m (c, b)) (Proc.devRef .tc main_v12) = _
  after_results
  rfl

theorem V_v13 (c : Dev nD) : (V m c main_v13 : S1x64.Idx → EReal) = shapeCast S1x64 (m ((c : Thread nD τ).loc main_arg13)) shapeCasts_S64_S1x64 := by
  show StableHlo.after hostOps0 (fun b => m (c, b)) (Proc.devRef .tc main_v13) = _
  after_results
  rfl

theorem V_v14 (c : Dev nD) : (V m c main_v14 : S1x1.Idx → EReal) = shapeCast S1x1 (m ((c : Thread nD τ).loc main_arg15)) shapeCasts_S1_S1x1 := by
  show StableHlo.after hostOps0 (fun b => m (c, b)) (Proc.devRef .tc main_v14) = _
  after_results
  rfl

end Cert.KernelIdeal.KValue

end
-- ==== Proof.KArray.lean ====
/-
  The result array of the kernel, and of the program.

  Grid point `t` stages rows `1024 t + p` (`p < 1024`) of the flattened states and agents' values, and each weight and
  bias whole; what it writes back is, at row `p`, the mixing network of row `1024 t + p` of the batch.  The 32 blocks
  tile the `[32768]` result, which therefore holds the network's output row by row; the program's last line reads row
  `256 b + t` of it at `(b, t, 0)`.
-/
import proofs.«150677_j13563506720937_2_alg».proof.Proof.KBlocks
import Idealize.ShloMosaic.Lib.ValueLayout

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The index maps over the grid -/

theorem t_lt (t : Fin cfg0.N) : t.val < 32 := lt_of_lt_of_eq t.isLt N_0

/-- The two row windows and the result move with the grid point; every other window stays at its whole array. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ win0_16.index t (0 : Fin 1) = t.val :=
  (by decide +kernel : ∀ t : Fin grid0.N, _)

/-- Row `1024 t + p` of the flattened batch. -/
def rowIx (t : Fin cfg0.N) (p : Fin 1024) : Fin 32768 :=
  ⟨1024 * t.val + p.val, by have := t_lt t; have := p.isLt; omega⟩

/-- The batch coordinates of a flattened row `r = 256 b + t`. -/
def bOf (r : Fin 32768) : Fin 128 := ⟨r.val / 256, by have := r.isLt; omega⟩
def tOf (r : Fin 32768) : Fin 256 := ⟨r.val % 256, Nat.mod_lt _ (by decide)⟩

/-! ## Each window's block at a grid point -/

theorem blk0 (c : Dev nD) (t : Fin cfg0.N) (p : Fin 1024) (k : Fin 512) :
    iblk m c 0 t (ix2 p k) = (m ((c : Thread nD τ).loc main_arg1)) (ix3 (bOf (rowIx t p)) (tOf (rowIx t p)) k) := by
  show V m c main_v0 (((cfg0.win 0).blk t).view.emb (ix2 p k)) = _
  rw [V_v0]
  refine shapeCast_apply _ _ _ _ ?_
  show (S128x256x512.rowMajor (ix3 (bOf (rowIx t p)) (tOf (rowIx t p)) k)).val
      = (S32768x512.rowMajor (((cfg0.win 0).blk t).view.emb (ix2 p k))).val
  rw [Shape.rowMajor_val_three, Shape.rowMajor_val_two]
  show (((1024 * t.val + p.val) / 256) * 256 + (1024 * t.val + p.val) % 256) * 512 + k.val
      = (win0_0.index t (0 : Fin 2) * 1024 + 1 * p.val) * 512 + (win0_0.index t (1 : Fin 2) * 512 + 1 * k.val)
  rw [(idx_facts t).1.1, (idx_facts t).1.2]
  omega

theorem blk1 (c : Dev nD) (t : Fin cfg0.N) (p : Fin 1024) (a : Fin 32) :
    iblk m c 1 t (ix2 p a) = (m ((c : Thread nD τ).loc main_arg0)) (ix3 (bOf (rowIx t p)) (tOf (rowIx t p)) a) := by
  show V m c main_v1 (((cfg0.win 1).blk t).view.emb (ix2 p a)) = _
  rw [V_v1]
  refine shapeCast_apply _ _ _ _ ?_
  show (S128x256x32.rowMajor (ix3 (bOf (rowIx t p)) (tOf (rowIx t p)) a)).val
      = (S32768x32.rowMajor (((cfg0.win 1).blk t).view.emb (ix2 p a))).val
  rw [Shape.rowMajor_val_three, Shape.rowMajor_val_two]
  show (((1024 * t.val + p.val) / 256) * 256 + (1024 * t.val + p.val) % 256) * 32 + a.val
      = (win0_1.index t (0 : Fin 2) * 1024 + 1 * p.val) * 32 + (win0_1.index t (1 : Fin 2) * 32 + 1 * a.val)
  rw [(idx_facts t).2.1.1, (idx_facts t).2.1.2]
  omega

theorem blk2 (c : Dev nD) (t : Fin cfg0.N) (j : Fin 256) (k : Fin 512) :
    iblk m c 2 t (ix2 j k) = (m ((c : Thread nD τ).loc main_arg2)) (ix2 j k) := by
  obtain ⟨f0, f1, f2, f3, f4, f5, f6, f7, f8, f9, f10, f11, f12, f13, f14, f15, f16⟩ := idx_facts t
  show V m c main_v2 (((cfg0.win 2).blk t).view.emb (ix2 j k)) = _
  rw [V_v2]
  refine congrArg _ (funext fun a => Fin.ext ?_)
  match a with
  | ⟨0, _⟩ => show win0_2.index t (0 : Fin 2) * 256 + 1 * j.val = j.val; rw [f2.1]; omega
  | ⟨1, _⟩ => show win0_2.index t (1 : Fin 2) * 512 + 1 * k.val = k.val; rw [f2.2]; omega

theorem blk3 (c : Dev nD) (t : Fin cfg0.N) (j : Fin 256) :
    iblk m c 3 t (ix2 (0 : Fin 1) j) = (m ((c : Thread nD τ).loc main_arg3)) (ix1 j) := by
  obtain ⟨f0, f1, f2, f3, f4, f5, f6, f7, f8, f9, f10, f11, f12, f13, f14, f15, f16⟩ := idx_facts t
  show V m c main_v8 (((cfg0.win 3).blk t).view.emb (ix2 (0 : Fin 1) j)) = _
  rw [V_v8]
  have he : ((cfg0.win 3).blk t).view.emb (ix2 (0 : Fin 1) j) = ix2 (0 : Fin 1) j := funext fun a => Fin.ext (by
    match a with
    | ⟨0, _⟩ => show win0_3.index t (0 : Fin 2) * 1 + 1 * 0 = 0; rw [f3.1]
    | ⟨1, _⟩ => show win0_3.index t (1 : Fin 2) * 256 + 1 * j.val = j.val; rw [f3.2]; omega)
  rw [he]
  exact shapeCast_a_1a_apply _ _ 0 j

theorem blk4 (c : Dev nD) (t : Fin cfg0.N) (n : Fin 2048) (j : Fin 256) :
    iblk m c 4 t (ix2 n j) = (m ((c : Thread nD τ).loc main_arg4)) (ix2 n j) := by
  obtain ⟨f0, f1, f2, f3, f4, f5, f6, f7, f8, f9, f10, f11, f12, f13, f14, f15, f16⟩ := idx_facts t
  show V m c main_v3 (((cfg0.win 4).blk t).view.emb (ix2 n j)) = _
  rw [V_v3]
  refine congrArg _ (funext fun a => Fin.ext ?_)
  match a with
  | ⟨0, _⟩ => show win0_4.index t (0 : Fin 2) * 2048 + 1 * n.val = n.val; rw [f4.1]; omega
  | ⟨1, _⟩ => show win0_4.index t (1 : Fin 2) * 256 + 1 * j.val = j.val; rw [f4.2]; omega

theorem blk5 (c : Dev nD) (t : Fin cfg0.N) (n : Fin 2048) :
    iblk m c 5 t (ix2 (0 : Fin 1) n) = (m ((c : Thread nD τ).loc main_arg5)) (ix1 n) := by
  obtain ⟨f0, f1, f2, f3, f4, f5, f6, f7, f8, f9, f10, f11, f12, f13, f14, f15, f16⟩ := idx_facts t
  show V m c main_v9 (((cfg0.win 5).blk t).view.emb (ix2 (0 : Fin 1) n)) = _
  rw [V_v9]
  have he : ((cfg0.win 5).blk t).view.emb (ix2 (0 : Fin 1) n) = ix2 (0 : Fin 1) n := funext fun a => Fin.ext (by
    match a with
    | ⟨0, _⟩ => show win0_5.index t (0 : Fin 2) * 1 + 1 * 0 = 0; rw [f5.1]
    | ⟨1, _⟩ => show win0_5.index t (1 : Fin 2) * 2048 + 1 * n.val = n.val; rw [f5.2]; omega)
  rw [he]
  exact shapeCast_a_1a_apply _ _ 0 n

theorem blk6 (c : Dev nD) (t : Fin cfg0.N) (j : Fin 256) (k : Fin 512) :
    iblk m c 6 t (ix2 j k) = (m ((c : Thread nD τ).loc main_arg6)) (ix2 j k) := by
  obtain ⟨f0, f1, f2, f3, f4, f5, f6, f7, f8, f9, f10, f11, f12, f13, f14, f15, f16⟩ := idx_facts t
  show V m c main_v4 (((cfg0.win 6).blk t).view.emb (ix2 j k)) = _
  rw [V_v4]
  refine congrArg _ (funext fun a => Fin.ext ?_)
  match a with
  | ⟨0, _⟩ => show win0_6.index t (0 : Fin 2) * 256 + 1 * j.val = j.val; rw [f6.1]; omega
  | ⟨1, _⟩ => show win0_6.index t (1 : Fin 2) * 512 + 1 * k.val = k.val; rw [f6.2]; omega

theorem blk7 (c : Dev nD) (t : Fin cfg0.N) (j : Fin 256) :
    iblk m c 7 t (ix2 (0 : Fin 1) j) = (m ((c : Thread nD τ).loc main_arg7)) (ix1 j) := by
  obtain ⟨f0, f1, f2, f3, f4, f5, f6, f7, f8, f9, f10, f11, f12, f13, f14, f15, f16⟩ := idx_facts t
  show V m c main_v10 (((cfg0.win 7).blk t).view.emb (ix2 (0 : Fin 1) j)) = _
  rw [V_v10]
  have he : ((cfg0.win 7).blk t).view.emb (ix2 (0 : Fin 1) j) = ix2 (0 : Fin 1) j := funext fun a => Fin.ext (by
    match a with
    | ⟨0, _⟩ => show win0_7.index t (0 : Fin 2) * 1 + 1 * 0 = 0; rw [f7.1]
    | ⟨1, _⟩ => show win0_7.index t (1 : Fin 2) * 256 + 1 * j.val = j.val; rw [f7.2]; omega)
  rw [he]
  exact shapeCast_a_1a_apply _ _ 0 j

theorem blk8 (c : Dev nD) (t : Fin cfg0.N) (e : Fin 64) (j : Fin 256) :
    iblk m c 8 t (ix2 e j) = (m ((c : Thread nD τ).loc main_arg8)) (ix2 e j) := by
  obtain ⟨f0, f1, f2, f3, f4, f5, f6, f7, f8, f9, f10, f11, f12, f13, f14, f15, f16⟩ := idx_facts t
  show V m c main_v5 (((cfg0.win 8).blk t).view.emb (ix2 e j)) = _
  rw [V_v5]
  refine congrArg _ (funext fun a => Fin.ext ?_)
  match a with
  | ⟨0, _⟩ => show win0_8.index t (0 : Fin 2) * 64 + 1 * e.val = e.val; rw [f8.1]; omega
  | ⟨1, _⟩ => show win0_8.index t (1 : Fin 2) * 256 + 1 * j.val = j.val; rw [f8.2]; omega

theorem blk9 (c : Dev nD) (t : Fin cfg0.N) (e : Fin 64) :
    iblk m c 9 t (ix2 (0 : Fin 1) e) = (m ((c : Thread nD τ).loc main_arg9)) (ix1 e) := by
  obtain ⟨f0, f1, f2, f3, f4, f5, f6, f7, f8, f9, f10, f11, f12, f13, f14, f15, f16⟩ := idx_facts t
  show V m c main_v11 (((cfg0.win 9).blk t).view.emb (ix2 (0 : Fin 1) e)) = _
  rw [V_v11]
  have he : ((cfg0.win 9).blk t).view.emb (ix2 (0 : Fin 1) e) = ix2 (0 : Fin 1) e := funext fun a => Fin.ext (by
    match a with
    | ⟨0, _⟩ => show win0_9.index t (0 : Fin 2) * 1 + 1 * 0 = 0; rw [f9.1]
    | ⟨1, _⟩ => show win0_9.index t (1 : Fin 2) * 64 + 1 * e.val = e.val; rw [f9.2]; omega)
  rw [he]
  exact shapeCast_a_1a_apply _ _ 0 e

theorem blk10 (c : Dev nD) (t : Fin cfg0.N) (e : Fin 64) (k : Fin 512) :
    iblk m c 10 t (ix2 e k) = (m ((c : Thread nD τ).loc main_arg10)) (ix2 e k) := by
  obtain ⟨f0, f1, f2, f3, f4, f5, f6, f7, f8, f9, f10, f11, f12, f13, f14, f15, f16⟩ := idx_facts t
  show V m c main_v6 (((cfg0.win 10).blk t).view.emb (ix2 e k)) = _
  rw [V_v6]
  refine congrArg _ (funext fun a => Fin.ext ?_)
  match a with
  | ⟨0, _⟩ => show win0_10.index t (0 : Fin 2) * 64 + 1 * e.val = e.val; rw [f10.1]; omega
  | ⟨1, _⟩ => show win0_10.index t (1 : Fin 2) * 512 + 1 * k.val = k.val; rw [f10.2]; omega

theorem blk11 (c : Dev nD) (t : Fin cfg0.N) (e : Fin 64) :
    iblk m c 11 t (ix2 (0 : Fin 1) e) = (m ((c : Thread nD τ).loc main_arg11)) (ix1 e) := by
  obtain ⟨f0, f1, f2, f3, f4, f5, f6, f7, f8, f9, f10, f11, f12, f13, f14, f15, f16⟩ := idx_facts t
  show V m c main_v12 (((cfg0.win 11).blk t).view.emb (ix2 (0 : Fin 1) e)) = _
  rw [V_v12]
  have he : ((cfg0.win 11).blk t).view.emb (ix2 (0 : Fin 1) e) = ix2 (0 : Fin 1) e := funext fun a => Fin.ext (by
    match a with
    | ⟨0, _⟩ => show win0_11.index t (0 : Fin 2) * 1 + 1 * 0 = 0; rw [f11.1]
    | ⟨1, _⟩ => show win0_11.index t (1 : Fin 2) * 64 + 1 * e.val = e.val; rw [f11.2]; omega)
  rw [he]
  exact shapeCast_a_1a_apply _ _ 0 e

theorem blk12 (c : Dev nD) (t : Fin cfg0.N) (e : Fin 64) (k : Fin 512) :
    iblk m c 12 t (ix2 e k) = (m ((c : Thread nD τ).loc main_arg12)) (ix2 e k) := by
  obtain ⟨f0, f1, f2, f3, f4, f5, f6, f7, f8, f9, f10, f11, f12, f13, f14, f15, f16⟩ := idx_facts t
  show V m c main_v7 (((cfg0.win 12).blk t).view.emb (ix2 e k)) = _
  rw [V_v7]
  refine congrArg _ (funext fun a => Fin.ext ?_)
  match a with
  | ⟨0, _⟩ => show win0_12.index t (0 : Fin 2) * 64 + 1 * e.val = e.val; rw [f12.1]; omega
  | ⟨1, _⟩ => show win0_12.index t (1 : Fin 2) * 512 + 1 * k.val = k.val; rw [f12.2]; omega

theorem blk13 (c : Dev nD) (t : Fin cfg0.N) (e : Fin 64) :
    iblk m c 13 t (ix2 (0 : Fin 1) e) = (m ((c : Thread nD τ).loc main_arg13)) (ix1 e) := by
  obtain ⟨f0, f1, f2, f3, f4, f5, f6, f7, f8, f9, f10, f11, f12, f13, f14, f15, f16⟩ := idx_facts t
  show V m c main_v13 (((cfg0.win 13).blk t).view.emb (ix2 (0 : Fin 1) e)) = _
  rw [V_v13]
  have he : ((cfg0.win 13).blk t).view.emb (ix2 (0 : Fin 1) e) = ix2 (0 : Fin 1) e := funext fun a => Fin.ext (by
    match a with
    | ⟨0, _⟩ => show win0_13.index t (0 : Fin 2) * 1 + 1 * 0 = 0; rw [f13.1]
    | ⟨1, _⟩ => show win0_13.index t (1 : Fin 2) * 64 + 1 * e.val = e.val; rw [f13.2]; omega)
  rw [he]
  exact shapeCast_a_1a_apply _ _ 0 e

theorem blk14 (c : Dev nD) (t : Fin cfg0.N) (e : Fin 64) :
    iblk m c 14 t (ix2 (0 : Fin 1) e) = (m ((c : Thread nD τ).loc main_arg14)) (ix2 (0 : Fin 1) e) := by
  obtain ⟨f0, f1, f2, f3, f4, f5, f6, f7, f8, f9, f10, f11, f12, f13, f14, f15, f16⟩ := idx_facts t
  show V m c main_arg14 (((cfg0.win 14).blk t).view.emb (ix2 (0 : Fin 1) e)) = _
  rw [V_main_arg14]
  refine congrArg _ (funext fun a => Fin.ext ?_)
  match a with
  | ⟨0, _⟩ => show win0_14.index t (0 : Fin 2) * 1 + 1 * 0 = 0; rw [f14.1]
  | ⟨1, _⟩ => show win0_14.index t (1 : Fin 2) * 64 + 1 * e.val = e.val; rw [f14.2]; omega

theorem blk15 (c : Dev nD) (t : Fin cfg0.N) :
    iblk m c 15 t (ix2 (0 : Fin 1) (0 : Fin 1)) = (m ((c : Thread nD τ).loc main_arg15)) (ix1 (0 : Fin 1)) := by
  obtain ⟨f0, f1, f2, f3, f4, f5, f6, f7, f8, f9, f10, f11, f12, f13, f14, f15, f16⟩ := idx_facts t
  show V m c main_v14 (((cfg0.win 15).blk t).view.emb (ix2 (0 : Fin 1) (0 : Fin 1))) = _
  rw [V_v14]
  have he : ((cfg0.win 15).blk t).view.emb (ix2 (0 : Fin 1) (0 : Fin 1)) = ix2 (0 : Fin 1) (0 : Fin 1) := funext fun a => Fin.ext (by
    match a with
    | ⟨0, _⟩ => show win0_15.index t (0 : Fin 2) * 1 + 1 * 0 = 0; rw [f15.1]
    | ⟨1, _⟩ => show win0_15.index t (1 : Fin 2) * 1 + 1 * 0 = 0; rw [f15.2])
  rw [he]
  exact shapeCast_a_1a_apply _ _ 0 0

/-! ## The result array -/

/-- The kernel's result: at flattened row `r`, the mixing network of batch row `(r / 256, r % 256)`. -/
def G (c : Dev nD) : S32768.Idx → EReal := fun i =>
  Cert.Qmix.out (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13))
      (m ((c : Thread nD τ).loc main_arg14))
      (m ((c : Thread nD τ).loc main_arg15))
      (bOf (i 0)) (tOf (i 0))

/-- What grid point `t` writes back is block `t` of that array. -/
theorem flushed_eq (c : Dev nD) (t : Fin cfg0.N) :
    (dats m 0 c).flushed 16 t = ((cfg0.win 16).blk t).view.read (Elt Ideal) (G m c) := by
  show (cfg0.win 16).cut (grid0.coords t) ((dats m 0 c).after 16 t) = _
  rw [after0_16]
  funext y
  obtain ⟨p, rfl⟩ : ∃ p : Fin 1024, y = ix1 p := ⟨y 0, eq_ix1 y⟩
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix1 p)
      = G m c (((cfg0.win 16).blk t).view.emb (ix1 p))
  refine (Pay.out_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) p).trans ?_
  have he : (((cfg0.win 16).blk t).view.emb (ix1 p)) 0 = rowIx t p := Fin.ext (by
    show win0_16.index t (0 : Fin 1) * 1024 + 1 * p.val = 1024 * t.val + p.val
    rw [(idx_facts t).2.2.2.2.2.2.2.2.2.2.2.2.2.2.2.2]
    omega)
  unfold G
  dsimp only
  rw [he]
  unfold Cert.Qmix.out
  simp only [blk0, blk1, blk2, blk3, blk4, blk5, blk6, blk7, blk8, blk9, blk10, blk11, blk12, blk13, blk14, blk15]

end Cert.KernelIdeal.KValue

end
-- ==== Proof.KRun.lean ====
/-
  The kernel program's run, read: the 32 blocks tile the `[32768]` result, so after the region it holds the mixing
  network's output row by row; the last line of the program reshapes it to `[128, 256, 1]`, reading row `256 b + t` at
  `(b, t, 0)`; the sixteen argument arrays end as launched.
-/
import proofs.«150677_j13563506720937_2_alg».proof.Proof.KArray

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- An index of the result is in grid point `t`'s block iff it lies in rows `1024 t … 1024 t + 1023`. -/
theorem mem_blk (t : Fin cfg0.N) (i : S32768.Idx) :
    i ∈ ((cfg0.win 16).blk t).view.set
      ↔ ∀ a : Fin 1, win0_16.index t a * S1024.size a ≤ (i a).val ∧ (i a).val < win0_16.index t a * S1024.size a + S1024.size a := by
  show i ∈ ((View.whole main_v15).slice (win0_16.rect t)).set ↔ _
  rw [View.set_slice_whole, Rect.mem_set_unit]
  exact Iff.rfl

/-- Every row of the result is in the block of the grid point `row / 1024`. -/
theorem cover (i : S32768.Idx) :
    ∃ t : Fin cfg0.N, (cfg0.win 16).flush t = true ∧ i ∈ ((cfg0.win 16).blk t).view.set := by
  have hi : (i 0).val < 32768 := (i 0).isLt
  have hN : (i 0).val / 1024 < cfg0.N := lt_of_lt_of_eq (by omega) N_0.symm
  refine ⟨⟨(i 0).val / 1024, hN⟩, flush0_16 _, ?_⟩
  rw [mem_blk]
  intro a
  match a with
  | ⟨0, _⟩ =>
    show win0_16.index ⟨(i 0).val / 1024, hN⟩ (0 : Fin 1) * 1024 ≤ (i 0).val
      ∧ (i 0).val < win0_16.index ⟨(i 0).val / 1024, hN⟩ (0 : Fin 1) * 1024 + 1024
    rw [(idx_facts ⟨(i 0).val / 1024, hN⟩).2.2.2.2.2.2.2.2.2.2.2.2.2.2.2.2]
    show (i 0).val / 1024 * 1024 ≤ (i 0).val ∧ (i 0).val < (i 0).val / 1024 * 1024 + 1024
    omega

/-- The result array after the region. -/
theorem final (c : Dev nD) : (dats m 0 c).arrAt 16 cfg0.N = G m c :=
  (dats m 0 c).arrAt_eq_of_cover 16 (G m c) (fun t _ => flushed_eq m c t) cover

/-- The program's result: the last line reshapes the kernel's result, so entry `(b, t, 0)` is row `256 b + t`. -/
theorem tail_v16 (c : Dev nD) :
    (Pipeline.afterTail₀ cfgs (dats m) 0 (V0 m) [hostOps1] c main_v16 : S128x256x1.Idx → EReal)
      = Cert.Qmix.outArr (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13))
      (m ((c : Thread nD τ).loc main_arg14))
      (m ((c : Thread nD τ).loc main_arg15)) := by
  have e : (Pipeline.afterTail₀ cfgs (dats m) 0 (V0 m) [hostOps1] c main_v16 : S128x256x1.Idx → EReal)
      = shapeCast S128x256x1 ((dats m 0 c).arrAt 16 cfg0.N) shapeCasts_S32768_S128x256x1 := by
    unfold Pipeline.afterTail₀
    show StableHlo.after hostOps1 _ (Proc.devRef .tc main_v16) = _
    after_results
    rw [Pipeline.withArrays_arr spec0 launch0.win.arr_inj c _ _ 16]
    rfl
  rw [e, final]
  funext i
  obtain ⟨b, t, z, rfl⟩ : ∃ (b : Fin 128) (t : Fin 256) (z : Fin 1), i = ix3 b t z := ⟨i 0, i 1, i 2, eq_ix3 i⟩
  have hr : 256 * b.val + t.val < 32768 := by have := b.isLt; have := t.isLt; omega
  refine (shapeCast_apply (G m c) _ (ix3 b t z) (ix1 ⟨256 * b.val + t.val, hr⟩) ?_).trans ?_
  · rw [Shape.rowMajor_val_one, Shape.rowMajor_val_three]
    show 256 * b.val + t.val = (b.val * 256 + t.val) * 1 + z.val
    have := z.isLt
    omega
  · have hb : bOf ⟨256 * b.val + t.val, hr⟩ = b := Fin.ext (by
      show (256 * b.val + t.val) / 256 = b.val
      have := t.isLt
      omega)
    have ht : tOf ⟨256 * b.val + t.val, hr⟩ = t := Fin.ext (by
      show (256 * b.val + t.val) % 256 = t.val
      have := t.isLt
      omega)
    show Cert.Qmix.out (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13))
      (m ((c : Thread nD τ).loc main_arg14))
      (m ((c : Thread nD τ).loc main_arg15))
        (bOf ⟨256 * b.val + t.val, hr⟩) (tOf ⟨256 * b.val + t.val, hr⟩)
      = Cert.Qmix.out (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13))
      (m ((c : Thread nD τ).loc main_arg14))
      (m ((c : Thread nD τ).loc main_arg15))
        b t
    rw [hb, ht]

/-- The idealized kernel program runs, ends with its result at the mixing network's output for every batch row, and
    leaves its sixteen arguments as launched. -/
theorem run : θ_run defs (onTc (τ := τ) (main (F := Ideal))) ⟨m, fun _ => 0, ρ⟩ fun r => ∀ c : Dev nD,
      r.2.mem ((c.tc : Thread nD τ).loc main_v16)
        = Cert.Qmix.outArr (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13))
      (m ((c : Thread nD τ).loc main_arg14))
      (m ((c : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c =>
    ⟨((h c).2 main_v16 (Pipeline.mem_restRefs_of main_v16 (by decide) (by decide))).trans (tail_v16 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      ((h c).1 14).trans (((dats m 0 c).arrAt_in 14 rfl _).trans ((A_eq m c 14).trans (V_main_arg14 m c))),
      (((h c).2 main_arg15 (Pipeline.mem_restRefs_of main_arg15 (by decide) (by decide))).trans (W_main_arg15 m (dats m) c))⟩)
    (run_main m ρ)

end Cert.KernelIdeal.KValue

end
-- ==== Proof.RefOps.lean ====
/- A table, no argument: the reference's 72 StableHLO operations in program order, copied from proof/ReferenceIdeal.lean —
   @main's own lines, and at each call of a module-local function the callee's lines over that call's buffer record —,
   and for each the library's fact that it touches TensorCore references only. -/
import proofs.«150677_j13563506720937_2_alg».proof.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- @main's operations in order, the calls unfolded. -/
abbrev ops : List (HloOp τ sig (Elt F)) :=
  [
    StableHlo.reshape main_arg1 main_v0 rfl shapeCasts_S128x256x512_S32768x512,
    StableHlo.reshape main_arg0 main_v1 rfl shapeCasts_S128x256x32_S32768x1x32,
    StableHlo.unary main_arg2 main_v2 ((transpose S512x256 [1, 0] · transposes_S256x512_S512x256_1_0) : (⟨S256x512, .f32⟩ : BufTy).Contents (Elt F) → (⟨S512x256, .f32⟩ : BufTy).Contents (Elt F)),
    StableHlo.binary main_v0 main_v2 main_v3 ((fun l r => Host.dotGeneral dot_S32768x512_S512x256_S32768x256_1_0_0_1_n_n none l r) : (⟨S32768x512, .f32⟩ : BufTy).Contents (Elt F) → (⟨S512x256, .f32⟩ : BufTy).Contents (Elt F) → (⟨S32768x256, .f32⟩ : BufTy).Contents (Elt F)),
    StableHlo.unary main_arg3 main_v4 (broadcastInDim S1x256 ![1] bcast_S256_S1x256_1 : (⟨S256, .f32⟩ : BufTy).Contents (Elt F) → (⟨S1x256, .f32⟩ : BufTy).Contents (Elt F)),
    StableHlo.unary main_v4 main_v5 (broadcastInDim S32768x256 ![0, 1] bcast_S1x256_S32768x256_0_1 : (⟨S1x256, .f32⟩ : BufTy).Contents (Elt F) → (⟨S32768x256, .f32⟩ : BufTy).Contents (Elt F)),
    StableHlo.binary main_v3 main_v5 main_v6 (addf : (⟨S32768x256, .f32⟩ : BufTy).Contents (Elt F) → (⟨S32768x256, .f32⟩ : BufTy).Contents (Elt F) → (⟨S32768x256, .f32⟩ : BufTy).Contents (Elt F)),
    StableHlo.TRef.nullary main_call0.cst (constant S_ .f32 0x00000000#32),
    StableHlo.TRef.unary main_call0.cst main_call0.v0 (broadcastInDim S32768x256 ![] bcast_S_S32768x256),
    StableHlo.TRef.binary (.of main_v6) main_call0.v0 main_call0.v1 maximumf,
    StableHlo.unary main_arg4 main_v8 ((transpose S256x2048 [1, 0] · transposes_S2048x256_S256x2048_1_0) : (⟨S2048x256, .f32⟩ : BufTy).Contents (Elt F) → (⟨S256x2048, .f32⟩ : BufTy).Contents (Elt F)),
    StableHlo.binary main_v7 main_v8 main_v9 ((fun l r => Host.dotGeneral dot_S32768x256_S256x2048_S32768x2048_1_0_0_1_n_n none l r) : (⟨S32768x256, .f32⟩ : BufTy).Contents (Elt F) → (⟨S256x2048, .f32⟩ : BufTy).Contents (Elt F) → (⟨S32768x2048, .f32⟩ : BufTy).Contents (Elt F)),
    StableHlo.unary main_arg5 main_v10 (broadcastInDim S1x2048 ![1] bcast_S2048_S1x2048_1 : (⟨S2048, .f32⟩ : BufTy).Contents (Elt F) → (⟨S1x2048, .f32⟩ : BufTy).Contents (Elt F)),
    StableHlo.unary main_v10 main_v11 (broadcastInDim S32768x2048 ![0, 1] bcast_S1x2048_S32768x2048_0_1 : (⟨S1x2048, .f32⟩ : BufTy).Contents (Elt F) → (⟨S32768x2048, .f32⟩ : BufTy).Contents (Elt F)),
    StableHlo.binary main_v9 main_v11 main_v12 (addf : (⟨S32768x2048, .f32⟩ : BufTy).Contents (Elt F) → (⟨S32768x2048, .f32⟩ : BufTy).Contents (Elt F) → (⟨S32768x2048, .f32⟩ : BufTy).Contents (Elt F)),
    StableHlo.unary main_v12 main_v13 (Host.absf : (⟨S32768x2048, .f32⟩ : BufTy).Contents (Elt F) → (⟨S32768x2048, .f32⟩ : BufTy).Contents (Elt F)),
    StableHlo.reshape main_v13 main_v14 rfl shapeCasts_S32768x2048_S32768x32x64,
    StableHlo.unary main_arg10 main_v15 ((transpose S512x64 [1, 0] · transposes_S64x512_S512x64_1_0) : (⟨S64x512, .f32⟩ : BufTy).Contents (Elt F) → (⟨S512x64, .f32⟩ : BufTy).Contents (Elt F)),
    StableHlo.binary main_v0 main_v15 main_v16 ((fun l r => Host.dotGeneral dot_S32768x512_S512x64_S32768x64_1_0_0_1_n_n none l r) : (⟨S32768x512, .f32⟩ : BufTy).Contents (Elt F) → (⟨S512x64, .f32⟩ : BufTy).Contents (Elt F) → (⟨S32768x64, .f32⟩ : BufTy).Contents (Elt F)),
    StableHlo.unary main_arg11 main_v17 (broadcastInDim S1x64 ![1] bcast_S64_S1x64_1 : (⟨S64, .f32⟩ : BufTy).Contents (Elt F) → (⟨S1x64, .f32⟩ : BufTy).Contents (Elt F)),
    StableHlo.unary main_v17 main_v18 (broadcastInDim S32768x64 ![0, 1] bcast_S1x64_S32768x64_0_1 : (⟨S1x64, .f32⟩ : BufTy).Contents (Elt F) → (⟨S32768x64, .f32⟩ : BufTy).Contents (Elt F)),
    StableHlo.binary main_v16 main_v18 main_v19 (addf : (⟨S32768x64, .f32⟩ : BufTy).Contents (Elt F) → (⟨S32768x64, .f32⟩ : BufTy).Contents (Elt F) → (⟨S32768x64, .f32⟩ : BufTy).Contents (Elt F)),
    StableHlo.reshape main_v19 main_v20 rfl shapeCasts_S32768x64_S32768x1x64,
    StableHlo.binary main_v1 main_v14 main_v21 ((fun l r => Host.dotGeneral dot_S32768x1x32_S32768x32x64_S32768x1x64_2_1_1_2_0_0 none l r) : (⟨S32768x1x32, .f32⟩ : BufTy).Contents (Elt F) → (⟨S32768x32x64, .f32⟩ : BufTy).Contents (Elt F) → (⟨S32768x1x64, .f32⟩ : BufTy).Contents (Elt F)),
    StableHlo.binary main_v21 main_v20 main_v22 (addf : (⟨S32768x1x64, .f32⟩ : BufTy).Contents (Elt F) → (⟨S32768x1x64, .f32⟩ : BufTy).Contents (Elt F) → (⟨S32768x1x64, .f32⟩ : BufTy).Contents (Elt F)),
    StableHlo.TRef.nullary main_call1.cst (constant S_ .f32 0x00000000#32),
    StableHlo.TRef.unary main_call1.cst main_call1.v0 (broadcastInDim S32768x1x64 ![] bcast_S_S32768x1x64),
    StableHlo.TRef.binary (.of main_v22) main_call1.v0 main_call1.v1 (cmpf .ogt),
    StableHlo.TRef.nullary main_call1.cst_0 (constant S_ .f32 0x00000000#32),
    StableHlo.TRef.unary main_call1.cst_0 main_call1.v2 (broadcastInDim S32768x1x64 ![] bcast_S_S32768x1x64),
    StableHlo.TRef.binary (.of main_v22) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S32768x1x64 ![] bcast_S_S32768x1x64),
    StableHlo.TRef.ternary main_call1.v3 main_call1.call0.v1 (.of main_v22) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S32768x1x64 ![] bcast_S_S32768x1x64),
    StableHlo.TRef.binary main_call1.v6 main_call1.v5 main_call1.v7 mulf,
    StableHlo.TRef.ternary main_call1.v1 (.of main_v22) main_call1.v7 main_call1.call1.v0 select,
    StableHlo.unary main_arg6 main_v24 ((transpose S512x256 [1, 0] · transposes_S256x512_S512x256_1_0) : (⟨S256x512, .f32⟩ : BufTy).Contents (Elt F) → (⟨S512x256, .f32⟩ : BufTy).Contents (Elt F)),
    StableHlo.binary main_v0 main_v24 main_v25 ((fun l r => Host.dotGeneral dot_S32768x512_S512x256_S32768x256_1_0_0_1_n_n none l r) : (⟨S32768x512, .f32⟩ : BufTy).Contents (Elt F) → (⟨S512x256, .f32⟩ : BufTy).Contents (Elt F) → (⟨S32768x256, .f32⟩ : BufTy).Contents (Elt F)),
    StableHlo.unary main_arg7 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S32768x256 ![0, 1] bcast_S1x256_S32768x256_0_1 : (⟨S1x256, .f32⟩ : BufTy).Contents (Elt F) → (⟨S32768x256, .f32⟩ : BufTy).Contents (Elt F)),
    StableHlo.binary main_v25 main_v27 main_v28 (addf : (⟨S32768x256, .f32⟩ : BufTy).Contents (Elt F) → (⟨S32768x256, .f32⟩ : BufTy).Contents (Elt F) → (⟨S32768x256, .f32⟩ : BufTy).Contents (Elt F)),
    StableHlo.TRef.nullary main_call2.cst (constant S_ .f32 0x00000000#32),
    StableHlo.TRef.unary main_call2.cst main_call2.v0 (broadcastInDim S32768x256 ![] bcast_S_S32768x256),
    StableHlo.TRef.binary (.of main_v28) main_call2.v0 main_call2.v1 maximumf,
    StableHlo.unary main_arg8 main_v30 ((transpose S256x64 [1, 0] · transposes_S64x256_S256x64_1_0) : (⟨S64x256, .f32⟩ : BufTy).Contents (Elt F) → (⟨S256x64, .f32⟩ : BufTy).Contents (Elt F)),
    StableHlo.binary main_v29 main_v30 main_v31 ((fun l r => Host.dotGeneral dot_S32768x256_S256x64_S32768x64_1_0_0_1_n_n none l r) : (⟨S32768x256, .f32⟩ : BufTy).Contents (Elt F) → (⟨S256x64, .f32⟩ : BufTy).Contents (Elt F) → (⟨S32768x64, .f32⟩ : BufTy).Contents (Elt F)),
    StableHlo.unary main_arg9 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S32768x64 ![0, 1] bcast_S1x64_S32768x64_0_1 : (⟨S1x64, .f32⟩ : BufTy).Contents (Elt F) → (⟨S32768x64, .f32⟩ : BufTy).Contents (Elt F)),
    StableHlo.binary main_v31 main_v33 main_v34 (addf : (⟨S32768x64, .f32⟩ : BufTy).Contents (Elt F) → (⟨S32768x64, .f32⟩ : BufTy).Contents (Elt F) → (⟨S32768x64, .f32⟩ : BufTy).Contents (Elt F)),
    StableHlo.unary main_v34 main_v35 (Host.absf : (⟨S32768x64, .f32⟩ : BufTy).Contents (Elt F) → (⟨S32768x64, .f32⟩ : BufTy).Contents (Elt F)),
    StableHlo.reshape main_v35 main_v36 rfl shapeCasts_S32768x64_S32768x64x1,
    StableHlo.unary main_arg12 main_v37 ((transpose S512x64 [1, 0] · transposes_S64x512_S512x64_1_0) : (⟨S64x512, .f32⟩ : BufTy).Contents (Elt F) → (⟨S512x64, .f32⟩ : BufTy).Contents (Elt F)),
    StableHlo.binary main_v0 main_v37 main_v38 ((fun l r => Host.dotGeneral dot_S32768x512_S512x64_S32768x64_1_0_0_1_n_n none l r) : (⟨S32768x512, .f32⟩ : BufTy).Contents (Elt F) → (⟨S512x64, .f32⟩ : BufTy).Contents (Elt F) → (⟨S32768x64, .f32⟩ : BufTy).Contents (Elt F)),
    StableHlo.unary main_arg13 main_v39 (broadcastInDim S1x64 ![1] bcast_S64_S1x64_1 : (⟨S64, .f32⟩ : BufTy).Contents (Elt F) → (⟨S1x64, .f32⟩ : BufTy).Contents (Elt F)),
    StableHlo.unary main_v39 main_v40 (broadcastInDim S32768x64 ![0, 1] bcast_S1x64_S32768x64_0_1 : (⟨S1x64, .f32⟩ : BufTy).Contents (Elt F) → (⟨S32768x64, .f32⟩ : BufTy).Contents (Elt F)),
    StableHlo.binary main_v38 main_v40 main_v41 (addf : (⟨S32768x64, .f32⟩ : BufTy).Contents (Elt F) → (⟨S32768x64, .f32⟩ : BufTy).Contents (Elt F) → (⟨S32768x64, .f32⟩ : BufTy).Contents (Elt F)),
    StableHlo.TRef.nullary main_call3.cst (constant S_ .f32 0x00000000#32),
    StableHlo.TRef.unary main_call3.cst main_call3.v0 (broadcastInDim S32768x64 ![] bcast_S_S32768x64),
    StableHlo.TRef.binary (.of main_v41) main_call3.v0 main_call3.v1 maximumf,
    StableHlo.unary main_arg14 main_v43 ((transpose S64x1 [1, 0] · transposes_S1x64_S64x1_1_0) : (⟨S1x64, .f32⟩ : BufTy).Contents (Elt F) → (⟨S64x1, .f32⟩ : BufTy).Contents (Elt F)),
    StableHlo.binary main_v42 main_v43 main_v44 ((fun l r => Host.dotGeneral dot_S32768x64_S64x1_S32768x1_1_0_0_1_n_n none l r) : (⟨S32768x64, .f32⟩ : BufTy).Contents (Elt F) → (⟨S64x1, .f32⟩ : BufTy).Contents (Elt F) → (⟨S32768x1, .f32⟩ : BufTy).Contents (Elt F)),
    StableHlo.unary main_arg15 main_v45 (broadcastInDim S1x1 ![1] bcast_S1_S1x1_1 : (⟨S1, .f32⟩ : BufTy).Contents (Elt F) → (⟨S1x1, .f32⟩ : BufTy).Contents (Elt F)),
    StableHlo.unary main_v45 main_v46 (broadcastInDim S32768x1 ![0, 1] bcast_S1x1_S32768x1_0_1 : (⟨S1x1, .f32⟩ : BufTy).Contents (Elt F) → (⟨S32768x1, .f32⟩ : BufTy).Contents (Elt F)),
    StableHlo.binary main_v44 main_v46 main_v47 (addf : (⟨S32768x1, .f32⟩ : BufTy).Contents (Elt F) → (⟨S32768x1, .f32⟩ : BufTy).Contents (Elt F) → (⟨S32768x1, .f32⟩ : BufTy).Contents (Elt F)),
    StableHlo.reshape main_v47 main_v48 rfl shapeCasts_S32768x1_S32768x1x1,
    StableHlo.binary main_v23 main_v36 main_v49 ((fun l r => Host.dotGeneral dot_S32768x1x64_S32768x64x1_S32768x1x1_2_1_1_2_0_0 none l r) : (⟨S32768x1x64, .f32⟩ : BufTy).Contents (Elt F) → (⟨S32768x64x1, .f32⟩ : BufTy).Contents (Elt F) → (⟨S32768x1x1, .f32⟩ : BufTy).Contents (Elt F)),
    StableHlo.binary main_v49 main_v48 main_v50 (addf : (⟨S32768x1x1, .f32⟩ : BufTy).Contents (Elt F) → (⟨S32768x1x1, .f32⟩ : BufTy).Contents (Elt F) → (⟨S32768x1x1, .f32⟩ : BufTy).Contents (Elt F)),
    StableHlo.reshape main_v50 main_v51 rfl shapeCasts_S32768x1x1_S128x256x1 ]

theorem ops_sub : (ops : List (HloOp τ sig (Elt F))).Forall fun op => op.bufs ⊆ tcRefs τ sig :=
  ⟨
    reshape_bufs_sub .., reshape_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., unary_bufs_sub .., reshape_bufs_sub .., unary_bufs_sub ..,
    binary_bufs_sub .., unary_bufs_sub .., unary_bufs_sub .., binary_bufs_sub .., reshape_bufs_sub .., binary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., binary_bufs_sub ..,
    unary_bufs_sub .., binary_bufs_sub .., unary_bufs_sub .., unary_bufs_sub .., binary_bufs_sub .., unary_bufs_sub ..,
    reshape_bufs_sub .., unary_bufs_sub .., binary_bufs_sub .., unary_bufs_sub .., unary_bufs_sub .., binary_bufs_sub ..,
    nullary_bufs_sub .., unary_bufs_sub .., binary_bufs_sub .., unary_bufs_sub .., binary_bufs_sub .., unary_bufs_sub ..,
    unary_bufs_sub .., binary_bufs_sub .., reshape_bufs_sub .., binary_bufs_sub .., binary_bufs_sub .., reshape_bufs_sub ..⟩

end Cert.ReferenceIdeal.RefRun

end
-- ==== Proof.RefRun.lean ====
/-
  The run of the reference's @main as a straight line of its StableHLO operations (the list is the imported table): @main
  is that line once each call of a module-local function is unfolded and sequencing reassociated, the signature scopes
  no buffer and no semaphore, and so every weakly fair execution terminates with each buffer at the fold of the
  operations' results over the launch contents.
-/
import proofs.«150677_j13563506720937_2_alg».proof.Proof.RefOps

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

-- seventy-two binds re-associated on the left side only (the right side, the list's own chain, unfolds by computation):
-- the rewriting recurses once per statement and needs more than the default budget at this length
set_option maxRecDepth 8192 in
set_option maxHeartbeats 1000000 in
/-- @main is that straight line: the functions' definitions unfolded at their calls, both sides are one chain of steps
    once sequencing is reassociated. -/
theorem main_eq (c : Dev nD) : main (F := F) c = seq ops := by
  unfold main
  simp only [fn_relu.body, fn_elu.body, fn_where.body, fn_where_0.body, fn_relu_1.body, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- From any memory with zero counters, for any float values: every weakly fair execution of @main terminates, and every
    final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefStages.lean ====
/-
  The reference's result as a composition of named stages, each the operations' own term for one buffer that later
  operations read: the flattened state rows, a dense layer with its bias row (at two widths), the rectifier, the
  nonnegative mixing weights, the hidden bias, the hidden layer before and after the exponential linear unit, the final
  weights, the state value, and the result. The fold of @main's operations at the result buffer is that composition.
-/
import proofs.«150677_j13563506720937_2_alg».proof.Proof.RefRun
import Idealize.ShloMosaic.PureOps.Ideal
import Idealize.ShloMosaic.PureOps.Ideal.Laws
import Idealize.ShloMosaic.Lib.ValueIdx
import Idealize.ShloMosaic.Lib.Pipeline.Value

noncomputable section

namespace Cert.ReferenceIdeal.RefStages

open Cert.ReferenceIdeal Cert.ReferenceIdeal.RefRun Idealize.ShloMosaic Idealize.ShloMosaic.TcCoe Idealize.SL.Sem Idealize.ShloMosaic.StableHlo

variable [Facts]
open Facts₀ Facts

/-- An f32 array of shape `S` at the ideal instance: a function from its indices to the extended reals. -/
abbrev C (S : Shape) : Type := FVec Ideal S .f32

/-- The state, its two leading axes flattened: [128, 256, 512] as [32768, 512]. -/
def rows (a1 : C S128x256x512) : C S32768x512 :=
  fun i => shapeCast S32768x512 a1 shapeCasts_S128x256x512_S32768x512 i

/-- The agents' values, flattened likewise with a unit axis: [128, 256, 32] as [32768, 1, 32]. -/
def qrows (a0 : C S128x256x32) : C S32768x1x32 :=
  fun i => shapeCast S32768x1x32 a0 shapeCasts_S128x256x32_S32768x1x32 i

/-- `x · wᵀ + b` for 256 output units: the product with the transposed weight, the bias broadcast down the rows. -/
def lin256 (x : C S32768x512) (w : C S256x512) (b : C S256) : C S32768x256 :=
  addf (Host.dotGeneral dot_S32768x512_S512x256_S32768x256_1_0_0_1_n_n none x (transpose S512x256 [1, 0] w transposes_S256x512_S512x256_1_0))
    (broadcastInDim S32768x256 ![0, 1] bcast_S1x256_S32768x256_0_1 (broadcastInDim S1x256 ![1] bcast_S256_S1x256_1 b))

/-- The same for 64 output units. -/
def lin64 (x : C S32768x512) (w : C S64x512) (b : C S64) : C S32768x64 :=
  addf (Host.dotGeneral dot_S32768x512_S512x64_S32768x64_1_0_0_1_n_n none x (transpose S512x64 [1, 0] w transposes_S64x512_S512x64_1_0))
    (broadcastInDim S32768x64 ![0, 1] bcast_S1x64_S32768x64_0_1 (broadcastInDim S1x64 ![1] bcast_S64_S1x64_1 b))

/-- The rectifier against the broadcast zero word, at width 256. -/
def relu256 (x : C S32768x256) : C S32768x256 :=
  maximumf x (broadcastInDim S32768x256 ![] bcast_S_S32768x256 (constant (F := Ideal) S_ .f32 0x00000000#32))

/-- The rectifier at width 64. -/
def relu64 (x : C S32768x64) : C S32768x64 :=
  maximumf x (broadcastInDim S32768x64 ![] bcast_S_S32768x64 (constant (F := Ideal) S_ .f32 0x00000000#32))

/-- The mixing weights [32768, 32, 64]: the absolute value of a dense layer of 2048 units on the rectified first layer. -/
def mixW (a1 : C S128x256x512) (a2 : C S256x512) (a3 : C S256) (a4 : C S2048x256) (a5 : C S2048) : C S32768x32x64 :=
  fun i => shapeCast S32768x32x64
    (Host.absf (addf
      (Host.dotGeneral dot_S32768x256_S256x2048_S32768x2048_1_0_0_1_n_n none (relu256 (lin256 (rows a1) a2 a3))
        (transpose S256x2048 [1, 0] a4 transposes_S2048x256_S256x2048_1_0))
      (broadcastInDim S32768x2048 ![0, 1] bcast_S1x2048_S32768x2048_0_1 (broadcastInDim S1x2048 ![1] bcast_S2048_S1x2048_1 a5))) : C S32768x2048)
    shapeCasts_S32768x2048_S32768x32x64 i

/-- The hidden bias [32768, 1, 64]. -/
def hidB (a1 : C S128x256x512) (a10 : C S64x512) (a11 : C S64) : C S32768x1x64 :=
  fun i => shapeCast S32768x1x64 (lin64 (rows a1) a10 a11) shapeCasts_S32768x64_S32768x1x64 i

/-- The hidden layer before the unit: the agents' values mixed row by row, plus the hidden bias. -/
def pre (a0 : C S128x256x32) (a1 : C S128x256x512) (a2 : C S256x512) (a3 : C S256) (a4 : C S2048x256) (a5 : C S2048)
    (a10 : C S64x512) (a11 : C S64) : C S32768x1x64 :=
  addf (Host.dotGeneral dot_S32768x1x32_S32768x32x64_S32768x1x64_2_1_1_2_0_0 none (qrows a0) (mixW a1 a2 a3 a4 a5)) (hidB a1 a10 a11)

/-- The exponential linear unit as the reference spells it: where `x` is above the zero word `x`, elsewhere the unit
    word times `expm1` of `x` with zero put where `x` is above zero. -/
def eluT (x : C S32768x1x64) : C S32768x1x64 :=
  select (cmpf .ogt x (broadcastInDim S32768x1x64 ![] bcast_S_S32768x1x64 (constant (F := Ideal) S_ .f32 0x00000000#32))) x
    (mulf (broadcastInDim S32768x1x64 ![] bcast_S_S32768x1x64 (constant (F := Ideal) S_ .f32 0x3F800000#32))
      (Host.expm1 (select (cmpf .ogt x (broadcastInDim S32768x1x64 ![] bcast_S_S32768x1x64 (constant (F := Ideal) S_ .f32 0x00000000#32)))
        (broadcastInDim S32768x1x64 ![] bcast_S_S32768x1x64 (id (constant (F := Ideal) S_ .f32 0x00000000#32))) x)))

/-- The final weights [32768, 64, 1]: the absolute value of a dense layer of 64 units on the rectified final first layer. -/
def finW (a1 : C S128x256x512) (a6 : C S256x512) (a7 : C S256) (a8 : C S64x256) (a9 : C S64) : C S32768x64x1 :=
  fun i => shapeCast S32768x64x1
    (Host.absf (addf
      (Host.dotGeneral dot_S32768x256_S256x64_S32768x64_1_0_0_1_n_n none (relu256 (lin256 (rows a1) a6 a7))
        (transpose S256x64 [1, 0] a8 transposes_S64x256_S256x64_1_0))
      (broadcastInDim S32768x64 ![0, 1] bcast_S1x64_S32768x64_0_1 (broadcastInDim S1x64 ![1] bcast_S64_S1x64_1 a9))) : C S32768x64)
    shapeCasts_S32768x64_S32768x64x1 i

/-- The state value [32768, 1, 1]. -/
def stateV (a1 : C S128x256x512) (a12 : C S64x512) (a13 : C S64) (a14 : C S1x64) (a15 : C S1) : C S32768x1x1 :=
  fun i => shapeCast S32768x1x1
    (addf
      (Host.dotGeneral dot_S32768x64_S64x1_S32768x1_1_0_0_1_n_n none (relu64 (lin64 (rows a1) a12 a13))
        (transpose S64x1 [1, 0] a14 transposes_S1x64_S64x1_1_0))
      (broadcastInDim S32768x1 ![0, 1] bcast_S1x1_S32768x1_0_1 (broadcastInDim S1x1 ![1] bcast_S1_S1x1_1 a15)) : C S32768x1)
    shapeCasts_S32768x1_S32768x1x1 i

/-- The result [128, 256, 1]: the hidden layer against the final weights row by row, plus the state value. -/
def result (a0 : C S128x256x32) (a1 : C S128x256x512) (a2 : C S256x512) (a3 : C S256) (a4 : C S2048x256) (a5 : C S2048)
    (a6 : C S256x512) (a7 : C S256) (a8 : C S64x256) (a9 : C S64) (a10 : C S64x512) (a11 : C S64)
    (a12 : C S64x512) (a13 : C S64) (a14 : C S1x64) (a15 : C S1) : C S128x256x1 :=
  fun i => shapeCast S128x256x1
    (addf
      (Host.dotGeneral dot_S32768x1x64_S32768x64x1_S32768x1x1_2_1_1_2_0_0 none (eluT (pre a0 a1 a2 a3 a4 a5 a10 a11)) (finW a1 a6 a7 a8 a9))
      (stateV a1 a12 a13 a14 a15) : C S32768x1x1)
    shapeCasts_S32768x1x1_S128x256x1 i

-- the fold over seventy-two operations read at one buffer in one rewriting pass, then the stages unfolded against it:
-- the hidden layer's term occurs four times under the unit and the state rows five times
set_option maxRecDepth 16384 in
set_option maxHeartbeats 2000000 in
/-- The fold of @main's operations at the result buffer is the stages' composition of the sixteen arguments. -/
theorem after_result (V : Valuation τ sig (Elt Ideal)) :
    after (ops (F := Ideal)) V (main_v51 : DevRef τ sig)
      = result (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) (V (main_arg11 : DevRef τ sig))
          (V (main_arg12 : DevRef τ sig)) (V (main_arg13 : DevRef τ sig)) (V (main_arg14 : DevRef τ sig)) (V (main_arg15 : DevRef τ sig)) := by
  after_results_simp
  rfl

end Cert.ReferenceIdeal.RefStages

end
-- ==== Proof.RefArgs.lean ====
/- A table of sixteen cases, one per argument array: no operation of the reference's @main writes an argument's buffer,
   so through the fold of the operations it keeps its launch contents (every operation's result buffer is another
   reference; the library's result rewriting reads that off). -/
import proofs.«150677_j13563506720937_2_alg».proof.Proof.RefRun

noncomputable section

namespace Cert.ReferenceIdeal.RefArgs

open Cert.ReferenceIdeal Cert.ReferenceIdeal.RefRun Idealize.ShloMosaic Idealize.ShloMosaic.TcCoe Idealize.SL.Sem Idealize.ShloMosaic.StableHlo

variable {F : FTy → Type} [FloatOps F] [Facts]
open Facts₀ Facts

set_option maxRecDepth 16384 in
set_option maxHeartbeats 1000000 in
theorem after_arg0 (V : Valuation τ sig (Elt F)) :
    after (ops (F := F)) V (main_arg0 : DevRef τ sig) = V (main_arg0 : DevRef τ sig) := by
  after_results_simp

set_option maxRecDepth 16384 in
set_option maxHeartbeats 1000000 in
theorem after_arg1 (V : Valuation τ sig (Elt F)) :
    after (ops (F := F)) V (main_arg1 : DevRef τ sig) = V (main_arg1 : DevRef τ sig) := by
  after_results_simp

set_option maxRecDepth 16384 in
set_option maxHeartbeats 1000000 in
theorem after_arg2 (V : Valuation τ sig (Elt F)) :
    after (ops (F := F)) V (main_arg2 : DevRef τ sig) = V (main_arg2 : DevRef τ sig) := by
  after_results_simp

set_option maxRecDepth 16384 in
set_option maxHeartbeats 1000000 in
theorem after_arg3 (V : Valuation τ sig (Elt F)) :
    after (ops (F := F)) V (main_arg3 : DevRef τ sig) = V (main_arg3 : DevRef τ sig) := by
  after_results_simp

set_option maxRecDepth 16384 in
set_option maxHeartbeats 1000000 in
theorem after_arg4 (V : Valuation τ sig (Elt F)) :
    after (ops (F := F)) V (main_arg4 : DevRef τ sig) = V (main_arg4 : DevRef τ sig) := by
  after_results_simp

set_option maxRecDepth 16384 in
set_option maxHeartbeats 1000000 in
theorem after_arg5 (V : Valuation τ sig (Elt F)) :
    after (ops (F := F)) V (main_arg5 : DevRef τ sig) = V (main_arg5 : DevRef τ sig) := by
  after_results_simp

set_option maxRecDepth 16384 in
set_option maxHeartbeats 1000000 in
theorem after_arg6 (V : Valuation τ sig (Elt F)) :
    after (ops (F := F)) V (main_arg6 : DevRef τ sig) = V (main_arg6 : DevRef τ sig) := by
  after_results_simp

set_option maxRecDepth 16384 in
set_option maxHeartbeats 1000000 in
theorem after_arg7 (V : Valuation τ sig (Elt F)) :
    after (ops (F := F)) V (main_arg7 : DevRef τ sig) = V (main_arg7 : DevRef τ sig) := by
  after_results_simp

set_option maxRecDepth 16384 in
set_option maxHeartbeats 1000000 in
theorem after_arg8 (V : Valuation τ sig (Elt F)) :
    after (ops (F := F)) V (main_arg8 : DevRef τ sig) = V (main_arg8 : DevRef τ sig) := by
  after_results_simp

set_option maxRecDepth 16384 in
set_option maxHeartbeats 1000000 in
theorem after_arg9 (V : Valuation τ sig (Elt F)) :
    after (ops (F := F)) V (main_arg9 : DevRef τ sig) = V (main_arg9 : DevRef τ sig) := by
  after_results_simp

set_option maxRecDepth 16384 in
set_option maxHeartbeats 1000000 in
theorem after_arg10 (V : Valuation τ sig (Elt F)) :
    after (ops (F := F)) V (main_arg10 : DevRef τ sig) = V (main_arg10 : DevRef τ sig) := by
  after_results_simp

set_option maxRecDepth 16384 in
set_option maxHeartbeats 1000000 in
theorem after_arg11 (V : Valuation τ sig (Elt F)) :
    after (ops (F := F)) V (main_arg11 : DevRef τ sig) = V (main_arg11 : DevRef τ sig) := by
  after_results_simp

set_option maxRecDepth 16384 in
set_option maxHeartbeats 1000000 in
theorem after_arg12 (V : Valuation τ sig (Elt F)) :
    after (ops (F := F)) V (main_arg12 : DevRef τ sig) = V (main_arg12 : DevRef τ sig) := by
  after_results_simp

set_option maxRecDepth 16384 in
set_option maxHeartbeats 1000000 in
theorem after_arg13 (V : Valuation τ sig (Elt F)) :
    after (ops (F := F)) V (main_arg13 : DevRef τ sig) = V (main_arg13 : DevRef τ sig) := by
  after_results_simp

set_option maxRecDepth 16384 in
set_option maxHeartbeats 1000000 in
theorem after_arg14 (V : Valuation τ sig (Elt F)) :
    after (ops (F := F)) V (main_arg14 : DevRef τ sig) = V (main_arg14 : DevRef τ sig) := by
  after_results_simp

set_option maxRecDepth 16384 in
set_option maxHeartbeats 1000000 in
theorem after_arg15 (V : Valuation τ sig (Elt F)) :
    after (ops (F := F)) V (main_arg15 : DevRef τ sig) = V (main_arg15 : DevRef τ sig) := by
  after_results_simp

end Cert.ReferenceIdeal.RefArgs

end
-- ==== Proof.RefIndex.lean ====
/-
  Index readings used to bring the reference's stages to the row-by-row specification: a bias vector broadcast down the
  rows, a scalar broadcast to an array, a product against a transposed weight, and the shape casts of this program —
  the two leading axes flattened to one (row `256 b + t`), a unit axis added, and 2048 columns read as 32 × 64.
-/
import proofs.«150677_j13563506720937_2_alg».proof.Proof.Spec
import proofs.«150677_j13563506720937_2_alg».proof.Proof.LibDense
import Idealize.ShloMosaic.Lib.Pipeline.Value
import Idealize.ShloMosaic.Lib.ValueLayout

noncomputable section

namespace Cert.ReferenceIdeal.RefIndex

open Idealize.ShloMosaic Idealize.ShloMosaic.ValueIdx

/-- A vector `b : [d]` placed on axis 1 of `[1, d]` and then broadcast down `n` rows, at `(r, j)`, is `b j`. -/
theorem bias2 {n d : ℕ} (b : (⟨1, ![d]⟩ : Shape).Idx → EReal)
    (h1 : (⟨1, ![d]⟩ : Shape).BroadcastsInDim ⟨2, ![1, d]⟩ (![1] : Fin 1 → Fin 2))
    (h2 : (⟨2, ![1, d]⟩ : Shape).BroadcastsInDim ⟨2, ![n, d]⟩ (![0, 1] : Fin 2 → Fin 2))
    (r : Fin n) (j : Fin d) :
    broadcastInDim ⟨2, ![n, d]⟩ ![0, 1] h2 (broadcastInDim ⟨2, ![1, d]⟩ ![1] h1 b) (ix2 r j) = b (ix1 j) := by
  refine (broadcastInDim_apply _ h2 _ (ix2 r j) (ix2 ⟨0, Nat.one_pos⟩ j) (fun a => ?_)).trans
    (broadcastInDim_apply _ h1 b (ix2 ⟨0, Nat.one_pos⟩ j) (ix1 j) (fun a => ?_))
  · match a with
    | ⟨0, _⟩ => exact (if_pos rfl).symm
    | ⟨1, _⟩ =>
      show j.val = if d = 1 then 0 else j.val
      have hlt := j.isLt
      split
      · omega
      · rfl
  · match a with
    | ⟨0, _⟩ =>
      show j.val = if d = 1 then 0 else j.val
      have hlt := j.isLt
      split
      · omega
      · rfl

/-- A scalar broadcast to any shape is the scalar at every index. -/
theorem splat {S : Shape} (x : (⟨0, ![]⟩ : Shape).Idx → EReal)
    (h : (⟨0, ![]⟩ : Shape).BroadcastsInDim S (![] : Fin 0 → Fin S.rank)) (i : S.Idx) :
    broadcastInDim S ![] h x i = x ix0 :=
  broadcastInDim_apply _ h x i ix0 (fun a => a.elim0)

/-- The product of `x : [M, K]` with the transpose of `w : [N, K]`, at `(r, j)`: the row of `x` against the row of `w`. -/
theorem dense_T {M K N : ℕ} (x : (⟨2, ![M, K]⟩ : Shape).Idx → EReal) (w : (⟨2, ![N, K]⟩ : Shape).Idx → EReal)
    (h : (⟨2, ![N, K]⟩ : Shape).Transposes [1, 0] ⟨2, ![K, N]⟩)
    (D : DotDims ⟨2, ![M, K]⟩ ⟨2, ![K, N]⟩ ⟨2, ![M, N]⟩) (hD : D = DotDims.plain M K N) (r : Fin M) (j : Fin N) :
    FloatOps.dotGeneral (F := Ideal) (φ₁ := .f32) (φ₂ := .f32) D none .single x (transpose ⟨2, ![K, N]⟩ [1, 0] w h) (ix2 r j)
      = ∑ k : Fin K, x (ix2 r k) * w (ix2 j k) := by
  subst hD
  rw [Cert.LibDense.dotGeneral_plain]
  unfold Cert.LibDense.prod
  exact Finset.sum_congr rfl fun k _ => congrArg (x (ix2 r k) * ·) (transpose_ix2_apply w h k j)

/-! ## The shape casts -/

/-- [128, 256, K] read as [32768, K]: row `256 b + t` is `(b, t)`. -/
theorem rows_apply {K : ℕ} (a : (⟨3, ![128, 256, K]⟩ : Shape).Idx → EReal)
    (h : (⟨3, ![128, 256, K]⟩ : Shape).ShapeCasts ⟨2, ![32768, K]⟩) (r : Fin 32768) (b : Fin 128) (t : Fin 256)
    (hr : r.val = 256 * b.val + t.val) (k : Fin K) :
    shapeCast ⟨2, ![32768, K]⟩ a h (ix2 r k) = a (ix3 b t k) :=
  shapeCast_apply a h _ _ (by
    rw [Shape.rowMajor_val_three, Shape.rowMajor_val_two]
    show (b.val * 256 + t.val) * K + k.val = r.val * K + k.val
    rw [hr, Nat.mul_comm 256 b.val])

/-- [128, 256, K] read as [32768, 1, K]. -/
theorem qrows_apply {K : ℕ} (a : (⟨3, ![128, 256, K]⟩ : Shape).Idx → EReal)
    (h : (⟨3, ![128, 256, K]⟩ : Shape).ShapeCasts ⟨3, ![32768, 1, K]⟩) (r : Fin 32768) (b : Fin 128) (t : Fin 256)
    (hr : r.val = 256 * b.val + t.val) (k : Fin K) :
    shapeCast ⟨3, ![32768, 1, K]⟩ a h (ix3 r 0 k) = a (ix3 b t k) :=
  shapeCast_apply a h _ _ (by
    rw [Shape.rowMajor_val_three, Shape.rowMajor_val_three]
    show (b.val * 256 + t.val) * K + k.val = (r.val * 1 + 0) * K + k.val
    rw [hr, Nat.mul_comm 256 b.val, Nat.mul_one, Nat.add_zero])

/-- [n, 2048] read as [n, 32, 64]: entry `(r, a, e)` is column `64 a + e`. -/
theorem flat_apply {n : ℕ} (x : (⟨2, ![n, 2048]⟩ : Shape).Idx → EReal)
    (h : (⟨2, ![n, 2048]⟩ : Shape).ShapeCasts ⟨3, ![n, 32, 64]⟩) (r : Fin n) (a : Fin 32) (e : Fin 64) :
    shapeCast ⟨3, ![n, 32, 64]⟩ x h (ix3 r a e) = x (ix2 r (Cert.Qmix.flat a e)) :=
  shapeCast_apply x h _ _ (by
    rw [Shape.rowMajor_val_two, Shape.rowMajor_val_three]
    show r.val * 2048 + (64 * a.val + e.val) = (r.val * 32 + a.val) * 64 + e.val
    omega)

/-- [n, d] read as [n, 1, d]. -/
theorem mid_unit_apply {n d : ℕ} (x : (⟨2, ![n, d]⟩ : Shape).Idx → EReal)
    (h : (⟨2, ![n, d]⟩ : Shape).ShapeCasts ⟨3, ![n, 1, d]⟩) (r : Fin n) (e : Fin d) :
    shapeCast ⟨3, ![n, 1, d]⟩ x h (ix3 r 0 e) = x (ix2 r e) :=
  shapeCast_apply x h _ _ (by
    rw [Shape.rowMajor_val_two, Shape.rowMajor_val_three]
    show r.val * d + e.val = (r.val * 1 + 0) * d + e.val
    rw [Nat.mul_one, Nat.add_zero])

/-- [n, d] read as [n, d, 1]. -/
theorem last_unit_apply {n d : ℕ} (x : (⟨2, ![n, d]⟩ : Shape).Idx → EReal)
    (h : (⟨2, ![n, d]⟩ : Shape).ShapeCasts ⟨3, ![n, d, 1]⟩) (r : Fin n) (e : Fin d) :
    shapeCast ⟨3, ![n, d, 1]⟩ x h (ix3 r e 0) = x (ix2 r e) :=
  shapeCast_apply x h _ _ (by
    rw [Shape.rowMajor_val_two, Shape.rowMajor_val_three]
    show r.val * d + e.val = (r.val * d + e.val) * 1 + 0
    rw [Nat.mul_one, Nat.add_zero])

/-- [32768, 1, 1] read as [128, 256, 1]: entry `(b, t, 0)` is row `256 b + t`. -/
theorem unrows_apply (x : (⟨3, ![32768, 1, 1]⟩ : Shape).Idx → EReal)
    (h : (⟨3, ![32768, 1, 1]⟩ : Shape).ShapeCasts ⟨3, ![128, 256, 1]⟩) (r : Fin 32768) (b : Fin 128) (t : Fin 256)
    (hr : r.val = 256 * b.val + t.val) :
    shapeCast ⟨3, ![128, 256, 1]⟩ x h (ix3 b t 0) = x (ix3 r 0 0) :=
  shapeCast_apply x h _ _ (by
    rw [Shape.rowMajor_val_three, Shape.rowMajor_val_three]
    show (r.val * 1 + 0) * 1 + 0 = (b.val * 256 + t.val) * 1 + 0
    omega)

end Cert.ReferenceIdeal.RefIndex

end
-- ==== Proof.RefValue.lean ====
/-
  The reference's result is the mixing network of the specification, row by row.

  Row `r = 256 b + t` of the flattened batch reads the state vector and the agents' values of `(b, t)`. Every dense
  layer of the reference is a product with a transposed weight plus a bias row, which at `(r, j)` is the
  specification's `dense` of row `r` against the weight's row `j`; the two batched products contract one axis with the
  row fixed, so at row `r` they are the finite sums over the agents and over the hidden units; the reference's select
  form of the exponential linear unit is the specification's; the rectifier and the absolute value are entrywise. The
  run of @main then ends with the result buffer at the specification's array and the sixteen arguments unchanged.
-/
import proofs.«150677_j13563506720937_2_alg».proof.Proof.RefStages
import proofs.«150677_j13563506720937_2_alg».proof.Proof.RefArgs
import proofs.«150677_j13563506720937_2_alg».proof.Proof.RefIndex

noncomputable section

namespace Cert.ReferenceIdeal.RefValue

open Cert.ReferenceIdeal Cert.ReferenceIdeal.RefRun Cert.ReferenceIdeal.RefStages Cert.ReferenceIdeal.RefIndex
open Idealize.ShloMosaic Idealize.ShloMosaic.TcCoe Idealize.SL.Sem Idealize.ShloMosaic.StableHlo Idealize.ShloMosaic.ValueIdx
open Cert.Qmix (Z dense relu abs' elu flat)

variable [Facts]
open Facts₀ Facts

/-! ## Entrywise stages -/

theorem relu256_apply (x : C S32768x256) (i : S32768x256.Idx) : relu256 x i = relu (x i) := by
  unfold relu256 relu
  exact congrArg (max (x i)) (splat _ bcast_S_S32768x256 i)

theorem relu64_apply (x : C S32768x64) (i : S32768x64.Idx) : relu64 x i = relu (x i) := by
  unfold relu64 relu
  exact congrArg (max (x i)) (splat _ bcast_S_S32768x64 i)

/-- The select on the comparison's bit is the conditional on the comparison. -/
theorem elu_scalar (x : EReal) :
    Scalar.select (Ideal.cmp .ogt x Z) x (Cert.Qmix.One * (Ideal.exp (Scalar.select (Ideal.cmp .ogt x Z) Z x) - 1)) = elu x := by
  rw [← Cert.Qmix.elu_where]
  by_cases h : x > Z
  · have hc : Ideal.cmp .ogt x Z = 1#1 := by
      show BitVec.ofBool (decide (Z < x)) = 1#1
      rw [decide_eq_true h]; rfl
    rw [hc, select_one, if_pos h]
  · have hc : Ideal.cmp .ogt x Z = 0#1 := by
      show BitVec.ofBool (decide (Z < x)) = 0#1
      rw [decide_eq_false h]; rfl
    rw [hc, select_zero, select_zero, if_neg h, if_neg h, Cert.Qmix.one_eq]

theorem eluT_apply (x : C S32768x1x64) (i : S32768x1x64.Idx) : eluT x i = elu (x i) := by
  have e0 : broadcastInDim S32768x1x64 ![] bcast_S_S32768x1x64 (constant (F := Ideal) S_ .f32 0x00000000#32) i = Z :=
    splat _ bcast_S_S32768x1x64 i
  have e1 : broadcastInDim S32768x1x64 ![] bcast_S_S32768x1x64 (constant (F := Ideal) S_ .f32 0x3F800000#32) i = Cert.Qmix.One :=
    splat _ bcast_S_S32768x1x64 i
  refine Eq.trans ?_ (elu_scalar (x i))
  unfold eluT
  show Scalar.select (Ideal.cmp .ogt (x i) (broadcastInDim S32768x1x64 ![] bcast_S_S32768x1x64 (constant (F := Ideal) S_ .f32 0x00000000#32) i)) (x i)
      (broadcastInDim S32768x1x64 ![] bcast_S_S32768x1x64 (constant (F := Ideal) S_ .f32 0x3F800000#32) i
        * (Ideal.exp (Scalar.select (Ideal.cmp .ogt (x i) (broadcastInDim S32768x1x64 ![] bcast_S_S32768x1x64 (constant (F := Ideal) S_ .f32 0x00000000#32) i))
            (broadcastInDim S32768x1x64 ![] bcast_S_S32768x1x64 (constant (F := Ideal) S_ .f32 0x00000000#32) i) (x i)) - 1)) = _
  rw [e0, e1]

/-! ## Dense layers at a row -/

theorem lin256_apply (x : C S32768x512) (w : C S256x512) (bb : C S256) (r : Fin 32768) (j : Fin 256) :
    lin256 x w bb (ix2 r j) = dense (fun k : Fin 512 => x (ix2 r k)) (fun k : Fin 512 => w (ix2 j k)) (bb (ix1 j)) := by
  unfold lin256 dense
  exact congrArg₂ (· + ·) (dense_T x w _ _ rfl r j) (bias2 bb _ _ r j)

theorem lin64_apply (x : C S32768x512) (w : C S64x512) (bb : C S64) (r : Fin 32768) (j : Fin 64) :
    lin64 x w bb (ix2 r j) = dense (fun k : Fin 512 => x (ix2 r k)) (fun k : Fin 512 => w (ix2 j k)) (bb (ix1 j)) := by
  unfold lin64 dense
  exact congrArg₂ (· + ·) (dense_T x w _ _ rfl r j) (bias2 bb _ _ r j)

section Row

variable (r : Fin 32768) (b : Fin 128) (t : Fin 256) (hr : r.val = 256 * b.val + t.val)
include hr

theorem rows_at (a1 : C S128x256x512) (k : Fin 512) : rows a1 (ix2 r k) = a1 (ix3 b t k) :=
  rows_apply a1 _ r b t hr k

theorem qrows_at (a0 : C S128x256x32) (a : Fin 32) : qrows a0 (ix3 r 0 a) = a0 (ix3 b t a) :=
  qrows_apply a0 _ r b t hr a

/-- A rectified first layer at row `r`, unit `j`. -/
theorem hidden_at (a1 : C S128x256x512) (w : C S256x512) (bb : C S256) (j : Fin 256) :
    relu256 (lin256 (rows a1) w bb) (ix2 r j)
      = relu (dense (fun k : Fin 512 => a1 (ix3 b t k)) (fun k : Fin 512 => w (ix2 j k)) (bb (ix1 j))) := by
  rw [relu256_apply, lin256_apply]
  simp only [rows_at r b t hr]

theorem mixW_at (a1 : C S128x256x512) (a2 : C S256x512) (a3 : C S256) (a4 : C S2048x256) (a5 : C S2048) (a : Fin 32) (e : Fin 64) :
    mixW a1 a2 a3 a4 a5 (ix3 r a e)
      = abs' (dense (fun j : Fin 256 => relu (dense (fun k : Fin 512 => a1 (ix3 b t k)) (fun k : Fin 512 => a2 (ix2 j k)) (a3 (ix1 j))))
          (fun j : Fin 256 => a4 (ix2 (flat a e) j)) (a5 (ix1 (flat a e)))) := by
  unfold mixW
  refine (flat_apply _ _ r a e).trans ?_
  show abs' (_ + _) = _
  refine congrArg abs' ?_
  unfold dense
  refine congrArg₂ (· + ·) ((dense_T _ a4 _ _ rfl r (flat a e)).trans ?_) (bias2 a5 _ _ r (flat a e))
  exact Finset.sum_congr rfl fun j _ => congrArg (· * a4 (ix2 (flat a e) j)) (hidden_at r b t hr a1 a2 a3 j)

theorem hidB_at (a1 : C S128x256x512) (a10 : C S64x512) (a11 : C S64) (e : Fin 64) :
    hidB a1 a10 a11 (ix3 r 0 e) = dense (fun k : Fin 512 => a1 (ix3 b t k)) (fun k : Fin 512 => a10 (ix2 e k)) (a11 (ix1 e)) := by
  unfold hidB
  refine (mid_unit_apply _ _ r e).trans ?_
  rw [lin64_apply]
  simp only [rows_at r b t hr]

theorem finW_at (a1 : C S128x256x512) (a6 : C S256x512) (a7 : C S256) (a8 : C S64x256) (a9 : C S64) (e : Fin 64) :
    finW a1 a6 a7 a8 a9 (ix3 r e 0)
      = abs' (dense (fun j : Fin 256 => relu (dense (fun k : Fin 512 => a1 (ix3 b t k)) (fun k : Fin 512 => a6 (ix2 j k)) (a7 (ix1 j))))
          (fun j : Fin 256 => a8 (ix2 e j)) (a9 (ix1 e))) := by
  unfold finW
  refine (last_unit_apply _ _ r e).trans ?_
  show abs' (_ + _) = _
  refine congrArg abs' ?_
  unfold dense
  refine congrArg₂ (· + ·) ((dense_T _ a8 _ _ rfl r e).trans ?_) (bias2 a9 _ _ r e)
  exact Finset.sum_congr rfl fun j _ => congrArg (· * a8 (ix2 e j)) (hidden_at r b t hr a1 a6 a7 j)

theorem stateV_at (a1 : C S128x256x512) (a12 : C S64x512) (a13 : C S64) (a14 : C S1x64) (a15 : C S1) :
    stateV a1 a12 a13 a14 a15 (ix3 r 0 0)
      = (∑ e : Fin 64, relu (dense (fun k : Fin 512 => a1 (ix3 b t k)) (fun k : Fin 512 => a12 (ix2 e k)) (a13 (ix1 e))) * a14 (ix2 0 e))
          + a15 (ix1 0) := by
  unfold stateV
  refine (mid_unit_apply _ _ r 0).trans ?_
  show _ + _ = _
  refine congrArg₂ (· + ·) ((dense_T _ a14 _ _ rfl r 0).trans ?_) (bias2 a15 _ _ r 0)
  refine Finset.sum_congr rfl fun e _ => congrArg (· * a14 (ix2 0 e)) ?_
  rw [relu64_apply, lin64_apply]
  simp only [rows_at r b t hr]

end Row

/-! ## The two batched products: the row fixed, one axis contracted

Both have batch axis 0 on each side, contract the left operand's axis 2 against the right operand's axis 1, and keep
the left operand's axis 1 and the right operand's axis 2: the left operand is read at (row, the result's axis 1, the
contraction index), the right operand at (row, the contraction index, the result's axis 2). -/

theorem mix_lhs0 (j : S32768x1x64.Idx) (q : dot_S32768x1x32_S32768x32x64_S32768x1x64_2_1_1_2_0_0.contr.Idx) :
    (dot_S32768x1x32_S32768x32x64_S32768x1x64_2_1_1_2_0_0.lhsIdx j q 0).val = (j 0).val := by
  unfold DotDims.lhsIdx
  rw [dif_pos (show (0 : Fin S32768x1x32.rank) ∈ dot_S32768x1x32_S32768x32x64_S32768x1x64_2_1_1_2_0_0.lhsBatch from List.mem_singleton.mpr rfl)]
  rfl

theorem mix_lhs1 (j : S32768x1x64.Idx) (q : dot_S32768x1x32_S32768x32x64_S32768x1x64_2_1_1_2_0_0.contr.Idx) :
    (dot_S32768x1x32_S32768x32x64_S32768x1x64_2_1_1_2_0_0.lhsIdx j q 1).val = (j 1).val := by
  unfold DotDims.lhsIdx
  rw [dif_neg (show ¬(1 : Fin S32768x1x32.rank) ∈ dot_S32768x1x32_S32768x32x64_S32768x1x64_2_1_1_2_0_0.lhsBatch from fun h => absurd (List.mem_singleton.mp h) (by decide)),
    dif_pos (show (1 : Fin S32768x1x32.rank) ∈ dot_S32768x1x32_S32768x32x64_S32768x1x64_2_1_1_2_0_0.lhsNonContracting from List.mem_singleton.mpr rfl)]
  rfl

theorem mix_rhs0 (j : S32768x1x64.Idx) (q : dot_S32768x1x32_S32768x32x64_S32768x1x64_2_1_1_2_0_0.contr.Idx) :
    (dot_S32768x1x32_S32768x32x64_S32768x1x64_2_1_1_2_0_0.rhsIdx j q 0).val = (j 0).val := by
  unfold DotDims.rhsIdx
  rw [dif_pos (show (0 : Fin S32768x32x64.rank) ∈ dot_S32768x1x32_S32768x32x64_S32768x1x64_2_1_1_2_0_0.rhsBatch from List.mem_singleton.mpr rfl)]
  rfl

theorem mix_rhs2 (j : S32768x1x64.Idx) (q : dot_S32768x1x32_S32768x32x64_S32768x1x64_2_1_1_2_0_0.contr.Idx) :
    (dot_S32768x1x32_S32768x32x64_S32768x1x64_2_1_1_2_0_0.rhsIdx j q 2).val = (j 2).val := by
  unfold DotDims.rhsIdx
  rw [dif_neg (show ¬(2 : Fin S32768x32x64.rank) ∈ dot_S32768x1x32_S32768x32x64_S32768x1x64_2_1_1_2_0_0.rhsBatch from fun h => absurd (List.mem_singleton.mp h) (by decide)),
    dif_pos (show (2 : Fin S32768x32x64.rank) ∈ dot_S32768x1x32_S32768x32x64_S32768x1x64_2_1_1_2_0_0.rhsNonContracting from List.mem_singleton.mpr rfl)]
  rfl

/-- `[n, 1, 32] × [n, 32, 64] → [n, 1, 64]`: at `(r, 0, e)` the sum over the 32 agents. -/
theorem mix_dot (x : C S32768x1x32) (y : C S32768x32x64) (r : Fin 32768) (e : Fin 64) :
    FloatOps.dotGeneral (F := Ideal) (φ₁ := .f32) (φ₂ := .f32) dot_S32768x1x32_S32768x32x64_S32768x1x64_2_1_1_2_0_0 none .single x y (ix3 r 0 e)
      = ∑ a : Fin 32, x (ix3 r 0 a) * y (ix3 r a e) := by
  rw [Ideal.dotGeneral_apply, ← Equiv.sum_comp (contrEquiv1 dot_S32768x1x32_S32768x32x64_S32768x1x64_2_1_1_2_0_0 32 rfl rfl).symm]
  refine Finset.sum_congr rfl fun a _ => ?_
  have hk := contrEquiv1_symm_val dot_S32768x1x32_S32768x32x64_S32768x1x64_2_1_1_2_0_0 32 rfl rfl a
  have el : dot_S32768x1x32_S32768x32x64_S32768x1x64_2_1_1_2_0_0.lhsIdx (ix3 r 0 e)
      ((contrEquiv1 dot_S32768x1x32_S32768x32x64_S32768x1x64_2_1_1_2_0_0 32 rfl rfl).symm a) = ix3 r 0 a :=
    funext fun c => Fin.ext (by
      match c with
      | ⟨0, _⟩ => exact mix_lhs0 _ _
      | ⟨1, _⟩ => exact mix_lhs1 _ _
      | ⟨2, _⟩ => exact (dot_S32768x1x32_S32768x32x64_S32768x1x64_2_1_1_2_0_0.lhsIdx_val_of_single rfl _ _).trans hk)
  have er : dot_S32768x1x32_S32768x32x64_S32768x1x64_2_1_1_2_0_0.rhsIdx (ix3 r 0 e)
      ((contrEquiv1 dot_S32768x1x32_S32768x32x64_S32768x1x64_2_1_1_2_0_0 32 rfl rfl).symm a) = ix3 r a e :=
    funext fun c => Fin.ext (by
      match c with
      | ⟨0, _⟩ => exact mix_rhs0 _ _
      | ⟨1, _⟩ => exact (dot_S32768x1x32_S32768x32x64_S32768x1x64_2_1_1_2_0_0.rhsIdx_val_of_single rfl _ _).trans hk
      | ⟨2, _⟩ => exact mix_rhs2 _ _)
  exact congrArg₂ (· * ·) (congrArg x el) (congrArg y er)

theorem out_lhs0 (j : S32768x1x1.Idx) (q : dot_S32768x1x64_S32768x64x1_S32768x1x1_2_1_1_2_0_0.contr.Idx) :
    (dot_S32768x1x64_S32768x64x1_S32768x1x1_2_1_1_2_0_0.lhsIdx j q 0).val = (j 0).val := by
  unfold DotDims.lhsIdx
  rw [dif_pos (show (0 : Fin S32768x1x64.rank) ∈ dot_S32768x1x64_S32768x64x1_S32768x1x1_2_1_1_2_0_0.lhsBatch from List.mem_singleton.mpr rfl)]
  rfl

theorem out_lhs1 (j : S32768x1x1.Idx) (q : dot_S32768x1x64_S32768x64x1_S32768x1x1_2_1_1_2_0_0.contr.Idx) :
    (dot_S32768x1x64_S32768x64x1_S32768x1x1_2_1_1_2_0_0.lhsIdx j q 1).val = (j 1).val := by
  unfold DotDims.lhsIdx
  rw [dif_neg (show ¬(1 : Fin S32768x1x64.rank) ∈ dot_S32768x1x64_S32768x64x1_S32768x1x1_2_1_1_2_0_0.lhsBatch from fun h => absurd (List.mem_singleton.mp h) (by decide)),
    dif_pos (show (1 : Fin S32768x1x64.rank) ∈ dot_S32768x1x64_S32768x64x1_S32768x1x1_2_1_1_2_0_0.lhsNonContracting from List.mem_singleton.mpr rfl)]
  rfl

theorem out_rhs0 (j : S32768x1x1.Idx) (q : dot_S32768x1x64_S32768x64x1_S32768x1x1_2_1_1_2_0_0.contr.Idx) :
    (dot_S32768x1x64_S32768x64x1_S32768x1x1_2_1_1_2_0_0.rhsIdx j q 0).val = (j 0).val := by
  unfold DotDims.rhsIdx
  rw [dif_pos (show (0 : Fin S32768x64x1.rank) ∈ dot_S32768x1x64_S32768x64x1_S32768x1x1_2_1_1_2_0_0.rhsBatch from List.mem_singleton.mpr rfl)]
  rfl

theorem out_rhs2 (j : S32768x1x1.Idx) (q : dot_S32768x1x64_S32768x64x1_S32768x1x1_2_1_1_2_0_0.contr.Idx) :
    (dot_S32768x1x64_S32768x64x1_S32768x1x1_2_1_1_2_0_0.rhsIdx j q 2).val = (j 2).val := by
  unfold DotDims.rhsIdx
  rw [dif_neg (show ¬(2 : Fin S32768x64x1.rank) ∈ dot_S32768x1x64_S32768x64x1_S32768x1x1_2_1_1_2_0_0.rhsBatch from fun h => absurd (List.mem_singleton.mp h) (by decide)),
    dif_pos (show (2 : Fin S32768x64x1.rank) ∈ dot_S32768x1x64_S32768x64x1_S32768x1x1_2_1_1_2_0_0.rhsNonContracting from List.mem_singleton.mpr rfl)]
  rfl

/-- `[n, 1, 64] × [n, 64, 1] → [n, 1, 1]`: at `(r, 0, 0)` the sum over the 64 hidden units. -/
theorem out_dot (x : C S32768x1x64) (y : C S32768x64x1) (r : Fin 32768) :
    FloatOps.dotGeneral (F := Ideal) (φ₁ := .f32) (φ₂ := .f32) dot_S32768x1x64_S32768x64x1_S32768x1x1_2_1_1_2_0_0 none .single x y (ix3 r 0 0)
      = ∑ e : Fin 64, x (ix3 r 0 e) * y (ix3 r e 0) := by
  rw [Ideal.dotGeneral_apply, ← Equiv.sum_comp (contrEquiv1 dot_S32768x1x64_S32768x64x1_S32768x1x1_2_1_1_2_0_0 64 rfl rfl).symm]
  refine Finset.sum_congr rfl fun a _ => ?_
  have hk := contrEquiv1_symm_val dot_S32768x1x64_S32768x64x1_S32768x1x1_2_1_1_2_0_0 64 rfl rfl a
  have el : dot_S32768x1x64_S32768x64x1_S32768x1x1_2_1_1_2_0_0.lhsIdx (ix3 r 0 0)
      ((contrEquiv1 dot_S32768x1x64_S32768x64x1_S32768x1x1_2_1_1_2_0_0 64 rfl rfl).symm a) = ix3 r 0 a :=
    funext fun c => Fin.ext (by
      match c with
      | ⟨0, _⟩ => exact out_lhs0 _ _
      | ⟨1, _⟩ => exact out_lhs1 _ _
      | ⟨2, _⟩ => exact (dot_S32768x1x64_S32768x64x1_S32768x1x1_2_1_1_2_0_0.lhsIdx_val_of_single rfl _ _).trans hk)
  have er : dot_S32768x1x64_S32768x64x1_S32768x1x1_2_1_1_2_0_0.rhsIdx (ix3 r 0 0)
      ((contrEquiv1 dot_S32768x1x64_S32768x64x1_S32768x1x1_2_1_1_2_0_0 64 rfl rfl).symm a) = ix3 r a 0 :=
    funext fun c => Fin.ext (by
      match c with
      | ⟨0, _⟩ => exact out_rhs0 _ _
      | ⟨1, _⟩ => exact (dot_S32768x1x64_S32768x64x1_S32768x1x1_2_1_1_2_0_0.rhsIdx_val_of_single rfl _ _).trans hk
      | ⟨2, _⟩ => exact out_rhs2 _ _)
  exact congrArg₂ (· * ·) (congrArg x el) (congrArg y er)

/-! ## The result is the specification's array -/

theorem result_eq (a0 : C S128x256x32) (a1 : C S128x256x512) (a2 : C S256x512) (a3 : C S256) (a4 : C S2048x256) (a5 : C S2048)
    (a6 : C S256x512) (a7 : C S256) (a8 : C S64x256) (a9 : C S64) (a10 : C S64x512) (a11 : C S64)
    (a12 : C S64x512) (a13 : C S64) (a14 : C S1x64) (a15 : C S1) :
    result a0 a1 a2 a3 a4 a5 a6 a7 a8 a9 a10 a11 a12 a13 a14 a15
      = Cert.Qmix.outArr a0 a1 a2 a3 a4 a5 a6 a7 a8 a9 a10 a11 a12 a13 a14 a15 := by
  funext i
  obtain ⟨b, t, z, rfl⟩ : ∃ (b : Fin 128) (t : Fin 256) (z : Fin 1), i = ix3 b t z := ⟨i 0, i 1, i 2, eq_ix3 i⟩
  obtain rfl : z = 0 := Subsingleton.elim _ _
  have hlt : 256 * b.val + t.val < 32768 := by have := b.isLt; have := t.isLt; omega
  have hr : (⟨256 * b.val + t.val, hlt⟩ : Fin 32768).val = 256 * b.val + t.val := rfl
  unfold result
  refine (unrows_apply _ _ ⟨256 * b.val + t.val, hlt⟩ b t hr).trans ?_
  show _ + _ = Cert.Qmix.out a0 a1 a2 a3 a4 a5 a6 a7 a8 a9 a10 a11 a12 a13 a14 a15 b t
  unfold Cert.Qmix.out Cert.Qmix.row
  refine (congrArg₂ (· + ·) (out_dot _ _ _) (stateV_at _ b t hr a1 a12 a13 a14 a15)).trans ?_
  refine congrArg (· + _) (Finset.sum_congr rfl fun e _ => ?_)
  refine congrArg₂ (· * ·) ((eluT_apply _ _).trans (congrArg elu ?_)) (finW_at _ b t hr a1 a6 a7 a8 a9 e)
  unfold pre
  refine (congrArg₂ (· + ·) (mix_dot _ _ _ e) (hidB_at _ b t hr a1 a10 a11 e)).trans ?_
  refine congrArg (· + _) (Finset.sum_congr rfl fun a _ => ?_)
  exact congrArg₂ (· * ·) (qrows_at _ b t hr a0 a) (mixW_at _ b t hr a1 a2 a3 a4 a5 a e)

/-! ## The run -/

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v51)
        = Cert.Qmix.outArr (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
            (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
      ⟨(h c main_v51).trans ((after_result (launchContents m c)).trans (result_eq _ _ _ _ _ _ _ _ _ _ _ _ _ _ _ _)),
      (h c main_arg0).trans (RefArgs.after_arg0 (launchContents m c)),
      (h c main_arg1).trans (RefArgs.after_arg1 (launchContents m c)),
      (h c main_arg2).trans (RefArgs.after_arg2 (launchContents m c)),
      (h c main_arg3).trans (RefArgs.after_arg3 (launchContents m c)),
      (h c main_arg4).trans (RefArgs.after_arg4 (launchContents m c)),
      (h c main_arg5).trans (RefArgs.after_arg5 (launchContents m c)),
      (h c main_arg6).trans (RefArgs.after_arg6 (launchContents m c)),
      (h c main_arg7).trans (RefArgs.after_arg7 (launchContents m c)),
      (h c main_arg8).trans (RefArgs.after_arg8 (launchContents m c)),
      (h c main_arg9).trans (RefArgs.after_arg9 (launchContents m c)),
      (h c main_arg10).trans (RefArgs.after_arg10 (launchContents m c)),
      (h c main_arg11).trans (RefArgs.after_arg11 (launchContents m c)),
      (h c main_arg12).trans (RefArgs.after_arg12 (launchContents m c)),
      (h c main_arg13).trans (RefArgs.after_arg13 (launchContents m c)),
      (h c main_arg14).trans (RefArgs.after_arg14 (launchContents m c)),
      (h c main_arg15).trans (RefArgs.after_arg15 (launchContents m c))⟩)
    (run_main (F := Ideal) m ρ)

end Cert.ReferenceIdeal.RefValue

end
-- ==== Proof.lean ====
/-
  The certificate of the mixing-network kernel against its jnp reference: the three frames, the (empty) ledger of
  the idealization, and the equality of the two idealized programs' results on the extended reals.

  Both programs compute, for every row `(b, t)` of the batch, the mixing network `Cert.Qmix.row` of that row's state
  vector and agent values and of the sixteen weights and biases (module `Spec`): two hypernetwork branches whose
  absolute values weight a sum over the agents and a sum over the hidden units, an exponential linear unit between
  them, and a value head.  The kernel processes 1024 rows per grid point with its matrix products' operands rounded to
  bf16 — the identity on the extended reals — and spells the agent-weighted sum as an elementwise product reduced over
  one axis and the last two contractions as reductions over lanes; the reference uses `dot_general` throughout.  A
  finite sum on the extended reals is a sum in a commutative monoid, and `expm1 x` is `exp x - 1` there, so the two
  results are one function of the arguments, with no appeal to finiteness of the inputs.
-/
import proofs.«150677_j13563506720937_2_alg».proof.Defs
import proofs.«150677_j13563506720937_2_alg».proof.Proof.Gen.Kernel.Frame
import proofs.«150677_j13563506720937_2_alg».proof.Proof.Gen.KernelIdeal.Frame
import proofs.«150677_j13563506720937_2_alg».proof.Proof.Gen.ReferenceIdeal
import proofs.«150677_j13563506720937_2_alg».proof.Proof.Gen.Pre_finite_inputs
import proofs.«150677_j13563506720937_2_alg».proof.Proof.KRun
import proofs.«150677_j13563506720937_2_alg».proof.Proof.RefValue

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- From memories agreeing on the sixteen arguments, both idealized programs end with the result array at the mixing
    network's output for every batch row. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6, h7, h8, h9, h10, h11, h12, h13, h14, h15⟩ := hagree c
  rw [h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
